-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S80000x128 : Shape := ⟨2, ![80000, 128]⟩
abbrev S60000x192 : Shape := ⟨2, ![60000, 192]⟩
abbrev S128x256 : Shape := ⟨2, ![128, 256]⟩
abbrev S256x256 : Shape := ⟨2, ![256, 256]⟩
abbrev S256 : Shape := ⟨1, ![256]⟩
abbrev S192x256 : Shape := ⟨2, ![192, 256]⟩
abbrev S1280000 : Shape := ⟨1, ![1280000]⟩
abbrev S640000 : Shape := ⟨1, ![640000]⟩
abbrev S_ : Shape := ⟨0, ![]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S80000x128 : S_.BroadcastsInDim S80000x128 (![] : Fin 0 → Fin S80000x128.rank)
  reducesTo_S80000x128_S_d0_1 : S80000x128.ReducesTo [0, 1] S_
  bcast_S_S60000x192 : S_.BroadcastsInDim S60000x192 (![] : Fin 0 → Fin S60000x192.rank)
  reducesTo_S60000x192_S_d0_1 : S60000x192.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S192x256 : S_.BroadcastsInDim S192x256 (![] : Fin 0 → Fin S192x256.rank)
  reducesTo_S192x256_S_d0_1 : S192x256.ReducesTo [0, 1] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256x256 .f32) (main_arg5 : FVec F S256 .f32) (main_arg6 : FVec F S192x256 .f32) (main_arg7 : FVec F S256x256 .f32) (main_arg8 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S192x256 .f32 := Host.absf main_arg6
  let main_cst_10 : FVec F S_ .f32 := constant S_ .f32 0x7F800000#32
  let main_v30 : FVec F S192x256 .f32 := broadcastInDim S192x256 ![] bcast_S_S192x256 main_cst_10
  let main_v31 : IVec S192x256 1 := cmpf .olt main_v29 main_v30
  let main_c_11 : IVec S_ 1 := constantI S_ 1 1#1
  let main_v32 : IVec S_ 1 := (fun x v => Host.reduce IntOp.andi x v reducesTo_S192x256_S_d0_1 h_S_) main_v31 main_c_11
  let main_v33 : IVec S_ 1 := andi main_v28 main_v32
  fn_part2 (F := F) main_arg7 main_arg8 main_v33

def fn {F : FTy → Type} [FloatOps F] (main_arg0 : FVec F S40000x256 .f32) (main_arg1 : FVec F S80000x128 .f32) (main_arg2 : FVec F S60000x192 .f32) (main_arg3 : FVec F S128x256 .f32) (main_arg4 : FVec F S256x256 .f32) (main_arg5 : FVec F S256 .f32) (main_arg6 : FVec F S192x256 .f32) (main_arg7 : FVec F S256x256 .f32) (main_arg8 : FVec F S256 .f32) (main_arg9 : IVec S1280000 32) (main_arg10 : IVec S1280000 32) (main_arg11 : IVec S640000 32) (main_arg12 : IVec S640000 32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S80000x128 .f32 := Host.absf main_arg1
  let main_cst_0 : FVec F S_ .f32 := constant S_ .f32 0x7F800000#32
  let main_v5 : FVec F S80000x128 .f32 := broadcastInDim S80000x128 ![] bcast_S_S80000x128 main_cst_0
  let main_v6 : IVec S80000x128 1 := cmpf .olt main_v4 main_v5
  let main_c_1 : IVec S_ 1 := constantI S_ 1 1#1
  let main_v7 : IVec S_ 1 := (fun x v => Host.reduce IntOp.andi x v reducesTo_S80000x128_S_d0_1 h_S_) main_v6 main_c_1
  let main_v8 : IVec S_ 1 := andi main_v3 main_v7
  let main_v9 : FVec F S60000x192 .f32 := Host.absf main_arg2
  let main_cst_2 : FVec F S_ .f32 := constant S_ .f32 0x7F800000#32
  let main_v10 : FVec F S60000x192 .f32 := broadcastInDim S60000x192 ![] bcast_S_S60000x192 main_cst_2
  let main_v11 : IVec S60000x192 1 := cmpf .olt main_v9 main_v10
  let main_c_3 : IVec S_ 1 := constantI S_ 1 1#1
  let main_v12 : IVec S_ 1 := (fun x v => Host.reduce IntOp.andi x v reducesTo_S60000x192_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_v13 main_v16
-- ==== Kernel.lean ====
abbrev S40000x256 : Shape := ⟨2, ![40000, 256]⟩
abbrev S80000x128 : Shape := ⟨2, ![80000, 128]⟩
abbrev S60000x192 : Shape := ⟨2, ![60000, 192]⟩
abbrev S128x256 : Shape := ⟨2, ![128, 256]⟩
abbrev S256x256 : Shape := ⟨2, ![256, 256]⟩
abbrev S256 : Shape := ⟨1, ![256]⟩
abbrev S192x256 : Shape := ⟨2, ![192, 256]⟩
abbrev S1280000 : Shape := ⟨1, ![1280000]⟩
abbrev S640000 : Shape := ⟨1, ![640000]⟩
abbrev S_ : Shape := ⟨0, ![]⟩
abbrev S1280000x1 : Shape := ⟨2, ![1280000, 1]⟩
abbrev S1280000x128 : Shape := ⟨2, ![1280000, 128]⟩
abbrev S40000x128 : Shape := ⟨2, ![40000, 128]⟩
abbrev S40000 : Shape := ⟨1, ![40000]⟩
abbrev S640000x1 : Shape := ⟨2, ![640000, 1]⟩
abbrev S640000x192 : Shape := ⟨2, ![640000, 192]⟩
abbrev S40000x192 : Shape := ⟨2, ![40000, 192]⟩
abbrev S40000x1 : Shape := ⟨2, ![40000, 1]⟩
abbrev S40000x2 : Shape := ⟨2, ![40000, 2]⟩
abbrev S320x256 : Shape := ⟨2, ![320, 256]⟩
abbrev S1x256 : Shape := ⟨2, ![1, 256]⟩
abbrev S2000x128 : Shape := ⟨2, ![2000, 128]⟩
abbrev S2000x192 : Shape := ⟨2, ![2000, 192]⟩
abbrev S2000x2 : Shape := ⟨2, ![2000, 2]⟩
abbrev S2000x256 : Shape := ⟨2, ![2000, 256]⟩
abbrev S2000x1 : Shape := ⟨2, ![2000, 1]⟩
abbrev S2000x320 : Shape := ⟨2, ![2000, 320]⟩

abbrev nBuf : Space → Nat
  | .hbm => 80
  | .vmem => 13
  | .smem => 0
  | _ => 0

abbrev bufTy : (tb : Table) → Fin (tcTables nBuf tb) → BufTy
  | .hbm, ⟨0, _⟩ => ⟨S40000x256, .f32⟩
  | .hbm, ⟨1, _⟩ => ⟨S80000x128, .f32⟩
  | .hbm, ⟨2, _⟩ => ⟨S60000x192, .f32⟩
  | .hbm, ⟨3, _⟩ => ⟨S128x256, .f32⟩
  | .hbm, ⟨4, _⟩ => ⟨S256x256, .f32⟩
  | .hbm, ⟨5, _⟩ => ⟨S256, .f32⟩
  | .hbm, ⟨6, _⟩ => ⟨S192x256, .f32⟩
  | .hbm, ⟨7, _⟩ => ⟨S256x256, .f32⟩
  | .hbm, ⟨8, _⟩ => ⟨S256, .f32⟩
  | .hbm, ⟨9, _⟩ => ⟨S1280000, .i32⟩
  | .hbm, ⟨10, _⟩ => ⟨S1280000, .i32⟩
  | .hbm, ⟨11, _⟩ => ⟨S640000, .i32⟩
  | .hbm, ⟨12, _⟩ => ⟨S640000, .i32⟩
  | .hbm, ⟨13, _⟩ => ⟨S_, .i32⟩
  | .hbm, ⟨14, _⟩ => ⟨S1280000, .i32⟩
  | .hbm, ⟨15, _⟩ => ⟨S1280000, .i1⟩
  | .hbm, ⟨16, _⟩ => ⟨S_, .i32⟩
  | .hbm, ⟨17, _⟩ => ⟨S1280000, .i32⟩
  | .hbm, ⟨18, _⟩ => ⟨S1280000, .i32⟩
  | .hbm, ⟨19, _⟩ => ⟨S1280000, .i32⟩
  | .hbm, ⟨20, _⟩ => ⟨S1280000x1, .i32⟩
  | .hbm, ⟨21, _⟩ => ⟨S1280000x128, .f32⟩
  | .hbm, ⟨22, _⟩ => ⟨S_, .f32⟩
  | .hbm, ⟨23, _⟩ => ⟨S40000x128, .f32⟩
  | .hbm, ⟨24, _⟩ => ⟨S1280000x1, .i32⟩
  | .hbm, ⟨25, _⟩ => ⟨S40000x128, .f32⟩
  | .hbm, ⟨26, _⟩ => ⟨S_, .f32⟩
  | .hbm, ⟨27, _⟩ => ⟨S1280000, .f32⟩
  | .hbm, ⟨28, _⟩ => ⟨S_, .f32⟩
  | .hbm, ⟨29, _⟩ => ⟨S40000, .f32⟩
  | .hbm, ⟨30, _⟩ => ⟨S1280000x1, .i32⟩
  | .hbm, ⟨31, _⟩ => ⟨S40000, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x192, .f32⟩
  | .hbm, ⟨41, _⟩ => ⟨S_, .f32⟩
  | .hbm, ⟨42, _⟩ => ⟨S40000x192, .f32⟩
  | .hbm, ⟨43, _⟩ => ⟨S640000x1, .i32⟩
  | .hbm, ⟨44, _⟩ => ⟨S40000x192, .f32⟩
  | .hbm, ⟨45, _⟩ => ⟨S_, .f32⟩
  | .hbm, ⟨46, _⟩ => ⟨S640000, .f32⟩
  | .hbm, ⟨47, _⟩ => ⟨S_, .f32⟩
  | .hbm, ⟨48, _⟩ => ⟨S40000, .f32⟩
  | .hbm, ⟨49, _⟩ => ⟨S640000x1, .i32⟩
  | .hbm, ⟨50, _⟩ => ⟨S40000, .f32⟩
  | .hbm, ⟨51, _⟩ => ⟨S_, .f32⟩
  | .hbm, ⟨52, _⟩ => ⟨S40000, .f32⟩
  | .hbm, ⟨53, _⟩ => ⟨S40000, .f32⟩
  | .hbm, ⟨54, _⟩ => ⟨S_, .f32⟩
  | .hbm, ⟨55, _⟩ => ⟨S40000, .f32⟩
  | .hbm, ⟨56, _⟩ => ⟨S40000, .f32⟩
  | .hbm, ⟨57, _⟩ => ⟨S40000x1, .f32⟩
  | .hbm, ⟨58, _⟩ => ⟨S_, .f32⟩
  | .hbm, ⟨59, _⟩ => ⟨S40000, .f32⟩
  | .hbm, ⟨60, _⟩ => ⟨S40000, .f32⟩
  | .hbm, ⟨61, _⟩ => ⟨S_, .f32⟩
  | .hbm, ⟨62, _⟩ => ⟨S40000, .f32⟩
  | .hbm, ⟨63, _⟩ => ⟨S40000, .f32⟩
  | .hbm, ⟨64, _⟩ => ⟨S40000x1, .f32⟩
  | .hbm, ⟨65, _⟩ => ⟨S40000x2, .f32⟩
  | .hbm, ⟨66, _⟩ => ⟨S320x256, .f32⟩
  | .hbm, ⟨67, _⟩ => ⟨S_, .f32⟩
  | .hbm, ⟨68, _⟩ => ⟨S320x256, .f32⟩
  | .hbm, ⟨69, _⟩ => ⟨S320x256, .f32⟩
  | .hbm, ⟨70, _⟩ => ⟨S256x256, .f32⟩
  | .hbm, ⟨71, _⟩ => ⟨S_, .f32⟩
  | .hbm, ⟨72, _⟩ => ⟨S256x256, .f32⟩
  | .hbm, ⟨73, _⟩ => ⟨S256x256, .f32⟩
  | .hbm, ⟨74, _⟩ => ⟨S256, .f32⟩
  | .hbm, ⟨75, _⟩ => ⟨S_, .f32⟩
  | .hbm, ⟨76, _⟩ => ⟨S256, .f32⟩
  | .hbm, ⟨77, _⟩ => ⟨S256, .f32⟩
  | .hbm, ⟨78, _⟩ => ⟨S1x256, .f32⟩
  | .hbm, ⟨79, _⟩ => ⟨S40000x256, .f32⟩
  | .local _ .vmem, ⟨0, _⟩ => ⟨S2000x128, .f32⟩
  | .local _ .vmem, ⟨1, _⟩ => ⟨S2000x128, .f32⟩
  | .local _ .vmem, ⟨2, _⟩ => ⟨S2000x192, .f32⟩
  | .local _ .vmem, ⟨3, _⟩ => ⟨S2000x192, .f32⟩
  | .local _ .vmem, ⟨4, _⟩ => ⟨S2000x2, .f32⟩
  | .local _ .vmem, ⟨5, _⟩ => ⟨S2000x2, .f32⟩
  | .local _ .vmem, ⟨6, _⟩ => ⟨S2000x256, .f32⟩
  | .local _ .vmem, ⟨7, _⟩ => ⟨S2000x256, .f32⟩
  | .local _ .vmem, ⟨8, _⟩ => ⟨S320x256, .f32⟩
  | .local _ .vmem, ⟨9, _⟩ => ⟨S256x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_8 : Ref sig .tc := ⟨.hbm, 51, rfl⟩
abbrev main_v28 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_13 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_14 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S320x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S40000x128 : S_.BroadcastsInDim S40000x128 (![] : Fin 0 → Fin S40000x128.rank)
  bcast_S_S40000 : S_.BroadcastsInDim S40000 (![] : Fin 0 → Fin S40000.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x192 : S_.BroadcastsInDim S40000x192 (![] : Fin 0 → Fin S40000x192.rank)
  shapeCasts_S40000_S40000x1 : S40000.ShapeCasts S40000x1
  concatenates_S40000x1_S40000x1_S40000x2_d1 : Shape.Concatenates [S40000x1, S40000x1] S40000x2 1
  concatenates_S128x256_S192x256_S320x256_d0 : Shape.Concatenates [S128x256, S192x256] S320x256 0
  bcast_S_S320x256 : S_.BroadcastsInDim S320x256 (![] : Fin 0 → Fin S320x256.rank)
  bcast_S_S256x256 : S_.BroadcastsInDim S256x256 (![] : Fin 0 → Fin S256x256.rank)
  bcast_S_S256 : S_.BroadcastsInDim S256 (![] : Fin 0 → Fin S256.rank)
  shapeCasts_S256_S1x256 : S256.ShapeCasts S1x256
  inb_S2000x2_S2000x1_0_0 : ∀ a, (![0, 0] : Fin 2 → Nat) a + S2000x1.size a ≤ S2000x2.size a
  h_S2000x1 : 0 < S2000x1.numel
  shapeCasts_S2000x1_S2000x1 : S2000x1.ShapeCasts S2000x1
  inb_S2000x2_S2000x1_0_1 : ∀ a, (![0, 1] : Fin 2 → Nat) a + S2000x1.size a ≤ S2000x2.size a
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  broadcasts_S2000x1_S2000x192 : S2000x1.Broadcasts S2000x192
  concatenates_S2000x128_S2000x192_S2000x320_d1 : Shape.Concatenates [S2000x128, S2000x192] S2000x320 1
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S320x256_S320x256_0_0 : ∀ a, (![0, 0] : Fin 2 → Nat) a + S320x256.size a ≤ S320x256.size a
  h_S320x256 : 0 < S320x256.numel
  shapeCasts_S320x256_S320x256 : S320x256.ShapeCasts S320x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S80000x128_S1280000x1_S1280000x128_1_0_n_n_0_1_1128_wf : GatherDims.WF S80000x128 S1280000x1 S1280000x128 [1] [0] [] [0] [] 1 ![1, 128]
  scatter_S40000x128_S1280000x1_S1280000x128_1_0_0_1_wf : ScatterDims.WF S40000x128 S1280000x1 S1280000x128 [1] [0] [0] 1
  scatter_S40000_S1280000x1_S1280000_n_0_0_1_wf : ScatterDims.WF S40000 S1280000x1 S1280000 [] [0] [0] 1
  gather_S60000x192_S640000x1_S640000x192_1_0_n_n_0_1_1192_wf : GatherDims.WF S60000x192 S640000x1 S640000x192 [1] [0] [] [0] [] 1 ![1, 192]
  scatter_S40000x192_S640000x1_S640000x192_1_0_0_1_wf : ScatterDims.WF S40000x192 S640000x1 S640000x192 [1] [0] [0] 1
  scatter_S40000_S640000x1_S640000_n_0_0_1_wf : ScatterDims.WF S40000 S640000x1 S640000 [] [0] [0] 1
  dot_S2000x320_S320x256_S2000x256_1_0_0_1_n_n_wf : DotDims.WF S2000x320 S320x256 S2000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x192.size a ≤ S40000x192.size a
  hwx0_1 : ∀ i : grid0.Coords, EltTy.bits .f32 = 32 ∨ (Rect.block (s := S40000x192) S2000x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S40000x2.size a
  hwx0_2 : ∀ i : grid0.Coords, EltTy.bits .f32 = 32 ∨ (Rect.block (s := S40000x2) S2000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S40000x256.size a
  hwx0_3 : ∀ i : grid0.Coords, EltTy.bits .f32 = 32 ∨ (Rect.block (s := S40000x256) S2000x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x256.size a ≤ S320x256.size a
  hwx0_4 : ∀ i : grid0.Coords, EltTy.bits .f32 = 32 ∨ (Rect.block (s := S320x256) S320x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S40000x256.size a
  hwx0_7 : ∀ i : grid0.Coords, EltTy.bits .f32 = 32 ∨ (Rect.block (s := S40000x256) S2000x256.size (cc0_transform_7 i) (hinb0_7 i)).WholeWords (EltTy.packing .f32)

variable [Facts₀]

def gather_S80000x128_S1280000x1_S1280000x128_1_0_n_n_0_1_1128 : GatherDims S80000x128 S1280000x1 S1280000x128 where
  offsetDims := [1]
  collapsedSliceDims := [0]
  operandBatchingDims := []
  startIndicesBatchingDims := []
  startIndexMap := [0]
  indexVectorDim := 1
  sliceSizes := ![1, 128]
  wf := gather_S80000x128_S1280000x1_S1280000x128_1_0_n_n_0_1_1128_wf
def scatter_S40000x128_S1280000x1_S1280000x128_1_0_0_1 : ScatterDims S40000x128 S1280000x1 S1280000x128 where
  updateWindowDims := [1]
  insertedWindowDims := [0]
  scatterDimsToOperandDims := [0]
  indexVectorDim := 1
  wf := scatter_S40000x128_S1280000x1_S1280000x128_1_0_0_1_wf
def scatter_S40000_S1280000x1_S1280000_n_0_0_1 : ScatterDims S40000 S1280000x1 S1280000 where
  updateWindowDims := []
  insertedWindowDims := [0]
  scatterDimsToOperandDims := [0]
  indexVectorDim := 1
  wf := scatter_S40000_S1280000x1_S1280000_n_0_0_1_wf
def gather_S60000x192_S640000x1_S640000x192_1_0_n_n_0_1_1192 : GatherDims S60000x192 S640000x1 S640000x192 where
  offsetDims := [1]
  collapsedSliceDims := [0]
  operandBatchingDims := []
  startIndicesBatchingDims := []
  startIndexMap := [0]
  indexVectorDim := 1
  sliceSizes := ![1, 192]
  wf := gather_S60000x192_S640000x1_S640000x192_1_0_n_n_0_1_1192_wf
def scatter_S40000x192_S640000x1_S640000x192_1_0_0_1 : ScatterDims S40000x192 S640000x1 S640000x192 where
  updateWindowDims := [1]
  insertedWindowDims := [0]
  scatterDimsToOperandDims := [0]
  indexVectorDim := 1
  wf := scatter_S40000x192_S640000x1_S640000x192_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S2000x320_S320x256_S2000x256_1_0_0_1_n_n : DotDims S2000x320 S320x256 S2000x256 where
  lhsContracting := [1]
  rhsContracting := [0]
  lhsNonContracting := [0]
  rhsNonContracting := [1]
  lhsBatch := []
  rhsBatch := []
  wf := dot_S2000x320_S320x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2000x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S320x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S40000x256 : Shape := ⟨2, ![40000, 256]⟩
abbrev S80000x128 : Shape := ⟨2, ![80000, 128]⟩
abbrev S60000x192 : Shape := ⟨2, ![60000, 192]⟩
abbrev S128x256 : Shape := ⟨2, ![128, 256]⟩
abbrev S256x256 : Shape := ⟨2, ![256, 256]⟩
abbrev S256 : Shape := ⟨1, ![256]⟩
abbrev S192x256 : Shape := ⟨2, ![192, 256]⟩
abbrev S1280000 : Shape := ⟨1, ![1280000]⟩
abbrev S640000 : Shape := ⟨1, ![640000]⟩
abbrev S_ : Shape := ⟨0, ![]⟩
abbrev S1280000x1 : Shape := ⟨2, ![1280000, 1]⟩
abbrev S1280000x128 : Shape := ⟨2, ![1280000, 128]⟩
abbrev S40000x128 : Shape := ⟨2, ![40000, 128]⟩
abbrev S40000 : Shape := ⟨1, ![40000]⟩
abbrev S40000x1 : Shape := ⟨2, ![40000, 1]⟩
abbrev S1x256 : Shape := ⟨2, ![1, 256]⟩
abbrev S640000x1 : Shape := ⟨2, ![640000, 1]⟩
abbrev S640000x192 : Shape := ⟨2, ![640000, 192]⟩
abbrev S40000x192 : Shape := ⟨2, ![40000, 192]⟩

abbrev nBuf : Space → Nat
  | .hbm => 82
  | .vmem => 0
  | .smem => 0
  | _ => 0

abbrev bufTy : (tb : Table) → Fin (tcTables nBuf tb) → BufTy
  | .hbm, ⟨0, _⟩ => ⟨S40000x256, .f32⟩
  | .hbm, ⟨1, _⟩ => ⟨S80000x128, .f32⟩
  | .hbm, ⟨2, _⟩ => ⟨S60000x192, .f32⟩
  | .hbm, ⟨3, _⟩ => ⟨S128x256, .f32⟩
  | .hbm, ⟨4, _⟩ => ⟨S256x256, .f32⟩
  | .hbm, ⟨5, _⟩ => ⟨S256, .f32⟩
  | .hbm, ⟨6, _⟩ => ⟨S192x256, .f32⟩
  | .hbm, ⟨7, _⟩ => ⟨S256x256, .f32⟩
  | .hbm, ⟨8, _⟩ => ⟨S256, .f32⟩
  | .hbm, ⟨9, _⟩ => ⟨S1280000, .i32⟩
  | .hbm, ⟨10, _⟩ => ⟨S1280000, .i32⟩
  | .hbm, ⟨11, _⟩ => ⟨S640000, .i32⟩
  | .hbm, ⟨12, _⟩ => ⟨S640000, .i32⟩
  | .hbm, ⟨13, _⟩ => ⟨S_, .i32⟩
  | .hbm, ⟨14, _⟩ => ⟨S1280000, .i32⟩
  | .hbm, ⟨15, _⟩ => ⟨S1280000, .i1⟩
  | .hbm, ⟨16, _⟩ => ⟨S_, .i32⟩
  | .hbm, ⟨17, _⟩ => ⟨S1280000, .i32⟩
  | .hbm, ⟨18, _⟩ => ⟨S1280000, .i32⟩
  | .hbm, ⟨19, _⟩ => ⟨S1280000, .i32⟩
  | .hbm, ⟨20, _⟩ => ⟨S1280000x1, .i32⟩
  | .hbm, ⟨21, _⟩ => ⟨S1280000x128, .f32⟩
  | .hbm, ⟨22, _⟩ => ⟨S_, .f32⟩
  | .hbm, ⟨23, _⟩ => ⟨S40000x128, .f32⟩
  | .hbm, ⟨24, _⟩ => ⟨S1280000x1, .i32⟩
  | .hbm, ⟨25, _⟩ => ⟨S40000x128, .f32⟩
  | .hbm, ⟨26, _⟩ => ⟨S_, .f32⟩
  | .hbm, ⟨27, _⟩ => ⟨S1280000, .f32⟩
  | .hbm, ⟨28, _⟩ => ⟨S_, .f32⟩
  | .hbm, ⟨29, _⟩ => ⟨S40000, .f32⟩
  | .hbm, ⟨30, _⟩ => ⟨S1280000x1, .i32⟩
  | .hbm, ⟨31, _⟩ => ⟨S40000, .f32⟩
  | .hbm, ⟨32, _⟩ => ⟨S_, .f32⟩
  | .hbm, ⟨33, _⟩ => ⟨S40000, .f32⟩
  | .hbm, ⟨34, _⟩ => ⟨S40000, .f32⟩
  | .hbm, ⟨35, _⟩ => ⟨S40000x1, .f32⟩
  | .hbm, ⟨36, _⟩ => ⟨S40000x128, .f32⟩
  | .hbm, ⟨37, _⟩ => ⟨S40000x128, .f32⟩
  | .hbm, ⟨38, _⟩ => ⟨S40000x256, .f32⟩
  | .hbm, ⟨39, _⟩ => ⟨S40000x256, .f32⟩
  | .hbm, ⟨40, _⟩ => ⟨S40000x256, .f32⟩
  | .hbm, ⟨41, _⟩ => ⟨S1x256, .f32⟩
  | .hbm, ⟨42, _⟩ => ⟨S40000x256, .f32⟩
  | .hbm, ⟨43, _⟩ => ⟨S40000x256, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x192, .f32⟩
  | .hbm, ⟨53, _⟩ => ⟨S_, .f32⟩
  | .hbm, ⟨54, _⟩ => ⟨S40000x192, .f32⟩
  | .hbm, ⟨55, _⟩ => ⟨S640000x1, .i32⟩
  | .hbm, ⟨56, _⟩ => ⟨S40000x192, .f32⟩
  | .hbm, ⟨57, _⟩ => ⟨S_, .f32⟩
  | .hbm, ⟨58, _⟩ => ⟨S640000, .f32⟩
  | .hbm, ⟨59, _⟩ => ⟨S_, .f32⟩
  | .hbm, ⟨60, _⟩ => ⟨S40000, .f32⟩
  | .hbm, ⟨61, _⟩ => ⟨S640000x1, .i32⟩
  | .hbm, ⟨62, _⟩ => ⟨S40000, .f32⟩
  | .hbm, ⟨63, _⟩ => ⟨S_, .f32⟩
  | .hbm, ⟨64, _⟩ => ⟨S40000, .f32⟩
  | .hbm, ⟨65, _⟩ => ⟨S40000, .f32⟩
  | .hbm, ⟨66, _⟩ => ⟨S40000x1, .f32⟩
  | .hbm, ⟨67, _⟩ => ⟨S40000x192, .f32⟩
  | .hbm, ⟨68, _⟩ => ⟨S40000x192, .f32⟩
  | .hbm, ⟨69, _⟩ => ⟨S40000x256, .f32⟩
  | .hbm, ⟨70, _⟩ => ⟨S40000x256, .f32⟩
  | .hbm, ⟨71, _⟩ => ⟨S40000x256, .f32⟩
  | .hbm, ⟨72, _⟩ => ⟨S1x256, .f32⟩
  | .hbm, ⟨73, _⟩ => ⟨S40000x256, .f32⟩
  | .hbm, ⟨74, _⟩ => ⟨S40000x256, .f32⟩
  | .hbm, ⟨75, _⟩ => ⟨S40000x256, .f32⟩
  | .hbm, ⟨76, _⟩ => ⟨S_, .f32⟩
  | .hbm, ⟨77, _⟩ => ⟨S40000x256, .f32⟩
  | .hbm, ⟨78, _⟩ => ⟨S40000x256, .f32⟩
  | .hbm, ⟨79, _⟩ => ⟨S_, .f32⟩
  | .hbm, ⟨80, _⟩ => ⟨S40000x256, .f32⟩
  | .hbm, ⟨81, _⟩ => ⟨S40000x256, .f32⟩
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_call0_cst : Ref sig .tc := ⟨.hbm, 79, rfl⟩
abbrev main_call0_v0 : Ref sig .tc := ⟨.hbm, 80, rfl⟩
abbrev main_v53 : Ref sig .tc := ⟨.hbm, 81, rfl⟩

abbrev nD : Nat := 1
abbrev τ : Topo := Topo.v7x

variable {F : FTy → Type} [FloatOps F]

class Facts₀ : Prop where
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x192 : S_.BroadcastsInDim S40000x192 (![] : Fin 0 → Fin S40000x192.rank)
  bcast_S40000x1_S40000x192_0_1 : S40000x1.BroadcastsInDim S40000x192 (![0, 1] : Fin 2 → Fin S40000x192.rank)
  bcast_S_S40000x256 : S_.BroadcastsInDim S40000x256 (![] : Fin 0 → Fin S40000x256.rank)
  gather_S80000x128_S1280000x1_S1280000x128_1_0_n_n_0_1_1128_wf : GatherDims.WF S80000x128 S1280000x1 S1280000x128 [1] [0] [] [0] [] 1 ![1, 128]
  scatter_S40000x128_S1280000x1_S1280000x128_1_0_0_1_wf : ScatterDims.WF S40000x128 S1280000x1 S1280000x128 [1] [0] [0] 1
  scatter_S40000_S1280000x1_S1280000_n_0_0_1_wf : ScatterDims.WF S40000 S1280000x1 S1280000 [] [0] [0] 1
  dot_S40000x128_S128x256_S40000x256_1_0_0_1_n_n_wf : DotDims.WF S40000x128 S128x256 S40000x256 [1] [0] [0] [1] [] []
  dot_S40000x256_S256x256_S40000x256_1_0_0_1_n_n_wf : DotDims.WF S40000x256 S256x256 S40000x256 [1] [0] [0] [1] [] []
  gather_S60000x192_S640000x1_S640000x192_1_0_n_n_0_1_1192_wf : GatherDims.WF S60000x192 S640000x1 S640000x192 [1] [0] [] [0] [] 1 ![1, 192]
  scatter_S40000x192_S640000x1_S640000x192_1_0_0_1_wf : ScatterDims.WF S40000x192 S640000x1 S640000x192 [1] [0] [0] 1
  scatter_S40000_S640000x1_S640000_n_0_0_1_wf : ScatterDims.WF S40000 S640000x1 S640000 [] [0] [0] 1
  dot_S40000x192_S192x256_S40000x256_1_0_0_1_n_n_wf : DotDims.WF S40000x192 S192x256 S40000x256 [1] [0] [0] [1] [] []

variable [Facts₀]

def gather_S80000x128_S1280000x1_S1280000x128_1_0_n_n_0_1_1128 : GatherDims S80000x128 S1280000x1 S1280000x128 where
  offsetDims := [1]
  collapsedSliceDims := [0]
  operandBatchingDims := []
  startIndicesBatchingDims := []
  startIndexMap := [0]
  indexVectorDim := 1
  sliceSizes := ![1, 128]
  wf := gather_S80000x128_S1280000x1_S1280000x128_1_0_n_n_0_1_1128_wf
def scatter_S40000x128_S1280000x1_S1280000x128_1_0_0_1 : ScatterDims S40000x128 S1280000x1 S1280000x128 where
  updateWindowDims := [1]
  insertedWindowDims := [0]
  scatterDimsToOperandDims := [0]
  indexVectorDim := 1
  wf := scatter_S40000x128_S1280000x1_S1280000x128_1_0_0_1_wf
def scatter_S40000_S1280000x1_S1280000_n_0_0_1 : ScatterDims S40000 S1280000x1 S1280000 where
  updateWindowDims := []
  insertedWindowDims := [0]
  scatterDimsToOperandDims := [0]
  indexVectorDim := 1
  wf := scatter_S40000_S1280000x1_S1280000_n_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def gather_S60000x192_S640000x1_S640000x192_1_0_n_n_0_1_1192 : GatherDims S60000x192 S640000x1 S640000x192 where
  offsetDims := [1]
  collapsedSliceDims := [0]
  operandBatchingDims := []
  startIndicesBatchingDims := []
  startIndexMap := [0]
  indexVectorDim := 1
  sliceSizes := ![1, 192]
  wf := gather_S60000x192_S640000x1_S640000x192_1_0_n_n_0_1_1192_wf
def scatter_S40000x192_S640000x1_S640000x192_1_0_0_1 : ScatterDims S40000x192 S640000x1 S640000x192 where
  updateWindowDims := [1]
  insertedWindowDims := [0]
  scatterDimsToOperandDims := [0]
  indexVectorDim := 1
  wf := scatter_S40000x192_S640000x1_S640000x192_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x192_S192x256_S40000x256_1_0_0_1_n_n : DotDims S40000x192 S192x256 S40000x256 where
  lhsContracting := [1]
  rhsContracting := [0]
  lhsNonContracting := [0]
  rhsNonContracting := [1]
  lhsBatch := []
  rhsBatch := []
  wf := dot_S40000x192_S192x256_S40000x256_1_0_0_1_n_n_wf

class Facts : Prop extends Facts₀ where

variable [Facts]
-- ==== Proof.Stages.lean ====
/-
  The stages the two programs share.

  Both programs begin alike: for each of the two relations they gather the source nodes' feature rows along the
  edges and add them up by destination row (the neighbour sums), add up a one per edge by destination row (the
  neighbour counts) and clamp the counts from below at one.  These four arrays are named here, as functions of the
  kernel's argument arrays on one device, by the reference's own stages: the equivalence never looks inside them.
-/
import proofs.«160087_j8839042695664_2_alg».proof.Proof.Gen.KernelIdeal.Frame
import proofs.«160087_j8839042695664_2_alg».proof.Proof.Gen.ReferenceIdeal.Read
import Idealize.ShloMosaic.PureOps.Ideal

noncomputable section

namespace Cert.Sage

open Cert.KernelIdeal Idealize.ShloMosaic Idealize.ShloMosaic.TcCoe Idealize.SL.Sem

variable (m : (ℓ : Loc nD τ sig) → Buf (Elt Ideal) ℓ)

/-- Relation p's neighbour sums. -/
def sumP (c : Dev nD) : FVec Ideal S40000x128 .f32 :=
  Cert.ReferenceIdeal.Read.val_main_v9 (F := Ideal) (m ((c : Thread nD τ).loc main_arg1))
    (m ((c : Thread nD τ).loc main_arg9)) (m ((c : Thread nD τ).loc main_arg10))

/-- Relation q's neighbour sums. -/
def sumQ (c : Dev nD) : FVec Ideal S40000x192 .f32 :=
  Cert.ReferenceIdeal.Read.val_main_v34 (F := Ideal) (m ((c : Thread nD τ).loc main_arg2))
    (m ((c : Thread nD τ).loc main_arg11)) (m ((c : Thread nD τ).loc main_arg12))

/-- Relation p's clamped neighbour counts, `max (count, 1)`. -/
def cntP (c : Dev nD) : FVec Ideal S40000 .f32 :=
  Cert.ReferenceIdeal.Read.val_main_v15 (F := Ideal) (m ((c : Thread nD τ).loc main_arg10))

/-- Relation q's clamped neighbour counts. -/
def cntQ (c : Dev nD) : FVec Ideal S40000 .f32 :=
  Cert.ReferenceIdeal.Read.val_main_v40 (F := Ideal) (m ((c : Thread nD τ).loc main_arg12))

/-- An array of ones. -/
def ones : FVec Ideal S40000 .f32 :=
  broadcastInDim S40000 ![] Cert.KernelIdeal.Gen.bcast_S_S40000 (constant (F := Ideal) S_ .f32 0x3F800000#32)

end Cert.Sage

end
-- ==== Proof.KernelAgg.lean ====
/-
  What the kernel's region finds in its two neighbour-sum arrays: the stages the reference computes too.
-/
import proofs.«160087_j8839042695664_2_alg».proof.Proof.Stages
import Idealize.ShloMosaic.Lib.StableHlo.Run

set_option pp.maxSteps 5000
set_option pp.deepTerms false
set_option Elab.async false

noncomputable section

namespace Cert.Sage

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 8000000 in
theorem arr_sumP (c : Dev nD) : (V m c main_v9 : FVec Ideal S40000x128 .f32) = sumP m c := by
  dsimp only [V, hostOps0]
  after_results_simp <;> rfl

set_option maxRecDepth 8192 in
set_option maxHeartbeats 8000000 in
theorem arr_sumQ (c : Dev nD) : (V m c main_v23 : FVec Ideal S40000x192 .f32) = sumQ m c := by
  dsimp only [V, hostOps0]
  after_results_simp <;> rfl

end Cert.Sage

end
-- ==== Proof.KernelWeights.lean ====
/-
  What the kernel's region finds in its other computed input arrays.

  The two reciprocals of the clamped neighbour counts packed as the two columns of one array; the two neighbour
  weight matrices stacked and halved; the two root weight matrices added and halved; and the two bias vectors
  added, halved and laid out as one row.  The halving is the averaging of the two relations' outputs, folded into
  the weights before the region runs.
-/
import proofs.«160087_j8839042695664_2_alg».proof.Proof.Stages
import Idealize.ShloMosaic.Lib.StableHlo.Run

set_option pp.maxSteps 5000
set_option pp.deepTerms false
set_option Elab.async false

noncomputable section

namespace Cert.Sage

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 8000000 in
/-- The two reciprocals `1 / max (count, 1)`, one column each. -/
theorem arr_inv (c : Dev nD) : (V m c main_v38 : FVec Ideal S40000x2 .f32)
    = concatenate S40000x2 1
        [⟨S40000x1, shapeCast S40000x1 (Host.divf (F := Ideal) ones (cntP m c)) shapeCasts_S40000_S40000x1⟩,
         ⟨S40000x1, shapeCast S40000x1 (Host.divf (F := Ideal) ones (cntQ m c)) shapeCasts_S40000_S40000x1⟩]
        concatenates_S40000x1_S40000x1_S40000x2_d1 := by
  dsimp only [V, hostOps0]
  after_results_simp
  -- the two columns, one at a time
  refine congrArg₂ (fun a b => concatenate S40000x2 1 [⟨S40000x1, a⟩, ⟨S40000x1, b⟩]
    concatenates_S40000x1_S40000x1_S40000x2_d1) ?_ ?_
  · after_results_simp <;> rfl
  · after_results_simp <;> rfl

set_option maxRecDepth 8192 in
set_option maxHeartbeats 8000000 in
/-- The stacked neighbour weights, halved. -/
theorem arr_wl (c : Dev nD) : (V m c main_v41 : FVec Ideal S320x256 .f32)
    = mulf (broadcastInDim S320x256 ![] bcast_S_S320x256 (constant (F := Ideal) S_ .f32 0x3F000000#32))
        (concatenate S320x256 0
          [⟨S128x256, (m ((c : Thread nD τ).loc main_arg3) : FVec Ideal S128x256 .f32)⟩,
           ⟨S192x256, (m ((c : Thread nD τ).loc main_arg6) : FVec Ideal S192x256 .f32)⟩]
          concatenates_S128x256_S192x256_S320x256_d0) := by
  dsimp only [V, hostOps0]
  after_results_simp
  refine congrArg (fun z => mulf (broadcastInDim S320x256 ![] bcast_S_S320x256 (constant (F := Ideal) S_ .f32 0x3F000000#32)) z)
    (congrArg₂ (fun a b => concatenate S320x256 0 [⟨S128x256, a⟩, ⟨S192x256, b⟩]
      concatenates_S128x256_S192x256_S320x256_d0) ?_ ?_)
  · after_results_simp <;> rfl
  · after_results_simp <;> rfl

set_option maxRecDepth 8192 in
set_option maxHeartbeats 8000000 in
/-- The sum of the two root weight matrices, halved. -/
theorem arr_wr (c : Dev nD) : (V m c main_v44 : FVec Ideal S256x256 .f32)
    = mulf (broadcastInDim S256x256 ![] bcast_S_S256x256 (constant (F := Ideal) S_ .f32 0x3F000000#32))
        (addf (m ((c : Thread nD τ).loc main_arg4) : FVec Ideal S256x256 .f32)
          (m ((c : Thread nD τ).loc main_arg7) : FVec Ideal S256x256 .f32)) := by
  dsimp only [V, hostOps0]
  after_results_simp <;> rfl

set_option maxRecDepth 8192 in
set_option maxHeartbeats 8000000 in
/-- The sum of the two bias vectors, halved, as one row. -/
theorem arr_b (c : Dev nD) : (V m c main_v48 : FVec Ideal S1x256 .f32)
    = shapeCast S1x256 (mulf (broadcastInDim S256 ![] bcast_S_S256 (constant (F := Ideal) S_ .f32 0x3F000000#32))
        (addf (m ((c : Thread nD τ).loc main_arg5) : FVec Ideal S256 .f32)
          (m ((c : Thread nD τ).loc main_arg8) : FVec Ideal S256 .f32))) shapeCasts_S256_S1x256 := by
  dsimp only [V, hostOps0]
  after_results_simp <;> rfl

end Cert.Sage

end
-- ==== Proof.LibRealEntries.lean ====
/-
  Extended reals that are real numbers, and the operations that keep them so.

  At the ideal instance a float is an extended real. Several operations can only produce a real number,
  whatever they are given: the logistic function maps every extended real into [0, 1]; a finite sum of
  reals is real; an accumulating scatter into an array of reals by updates that are reals is an array of
  reals (each element is the old element plus a finite sum of updates); the larger of a real and one is a
  positive real; and a real divided by a real that is not zero is real. This file proves those facts, with
  the bit patterns of one, zero and minus infinity read as extended reals.
-/
import Idealize.ShloMosaic.PureOps.Ideal.Laws
import Idealize.ShloMosaic.Lib.IdealHost

noncomputable section

namespace Cert.Lib.RealEntries

open Idealize.ShloMosaic
open scoped BigOperators

/-- An extended real that is a real number (neither infinity). -/
def IsReal (x : EReal) : Prop := ∃ r : ℝ, x = (r : EReal)

/-- An extended real that is a positive real number. -/
def IsPosReal (x : EReal) : Prop := ∃ r : ℝ, 0 < r ∧ x = (r : EReal)

theorem isReal_coe (r : ℝ) : IsReal (r : EReal) := ⟨r, rfl⟩

theorem isReal_zero : IsReal 0 := ⟨0, rfl⟩

theorem isReal_one : IsReal 1 := ⟨1, rfl⟩

theorem IsPosReal.isReal {x : EReal} (h : IsPosReal x) : IsReal x := by
  obtain ⟨r, -, e⟩ := h
  exact ⟨r, e⟩

/-- The logistic function of ANY extended real is a real number: 0 at minus infinity, 1 at plus
    infinity, and 1 / (1 + e^(-r)) at a real r. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals is real. -/
theorem isReal_sum {ι : Type*} (s : Finset ι) (f : ι → EReal) (h : ∀ j ∈ s, IsReal (f j)) :
    IsReal (∑ j ∈ s, f j) := by
  classical
  induction s using Finset.induction_on with
  | empty => rw [Finset.sum_empty]; exact isReal_zero
  | insert a s ha ih =>
    rw [Finset.sum_insert ha]
    exact (h a (Finset.mem_insert_self a s)).add (ih fun j hj => h j (Finset.mem_insert_of_mem hj))

/-- An accumulating scatter of real updates into an array of reals is an array of reals: each element is
    the old element plus the finite sum of the updates landing on it. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- The larger of a real and one is a positive real. -/
theorem isPosReal_max_one {x : EReal} (hx : IsReal x) : IsPosReal (max x 1) := by
  obtain ⟨a, rfl⟩ := hx
  refine ⟨max a 1, lt_of_lt_of_le one_pos (le_max_right a 1), ?_⟩
  rw [← EReal.coe_one]
  exact (EReal.coe_strictMono.monotone.map_max (a := a) (b := 1)).symm

/-- A real divided by a positive real is real. -/
theorem isReal_div {x y : EReal} (hx : IsReal x) (hy : IsPosReal y) : IsReal (Ideal.div x y) := by
  obtain ⟨a, rfl⟩ := hx
  obtain ⟨b, hb, rfl⟩ := hy
  rw [Ideal.div_coe hb.ne']
  exact ⟨a * (1 / b), (EReal.coe_mul a (1 / b)).symm⟩

/-- The f32 pattern of minus infinity is the bottom extended real. -/
theorem ofBits_neg_inf_f32 : Ideal.ofBits .f32 0xFF800000#32 = ⊥ := by
  simp [Ideal.ofBits, Ideal.ieee]

end Cert.Lib.RealEntries

end
-- ==== Proof.LibFiniteEntries.lean ====
/-
  Finite entries are real numbers: reading a "every entry is finite" precondition.

  A precondition of the form `all (|x| < +∞)` over a float array prints as a reduction by `and` of the
  comparisons `|x i| < +∞` into one word.  On the extended reals `|x| < +∞` holds exactly when `x` is a real
  number, since at either infinity the absolute value is `+∞` itself.  So if the reduction's word is 1, every
  entry of the array is a real number (`isReal_of_all_finite`) — the form in which an algebraic law that fails at
  the infinities (distributivity, cancellation) can use the precondition.  Also here: the f32 patterns of plus
  infinity and of one half read as extended reals.  (It imports LibRealEntries.lean, which sits beside it.)
-/
import proofs.«160087_j8839042695664_2_alg».proof.Proof.LibRealEntries
import Idealize.ShloMosaic.Lib.ReduceAll
import Idealize.ShloMosaic.Lib.Affine
import Idealize.ShloMosaic.Lib.ValueIdx
import Idealize.ShloMosaic.Lib.IdealHost
import Idealize.ShloMosaic.PureOps.Ideal.Laws

noncomputable section

namespace Cert.Lib.RealEntries

open Idealize.ShloMosaic Idealize.ShloMosaic.ValueIdx

/-- The f32 pattern of plus infinity is the top extended real. -/
theorem ofBits_pos_inf_f32 : Ideal.ofBits .f32 0x7F800000#32 = ⊤ := by
  simp [Ideal.ofBits, Ideal.ieee]

/-- The f32 pattern of one half is the real number 1/2. -/
theorem ofBits_half_f32 : Ideal.ofBits .f32 0x3F000000#32 = ((1 / 2 : ℝ) : EReal) := by
  simp [Ideal.ofBits, Ideal.ieee]
  rw [← EReal.coe_mul]
  exact congrArg _ (by norm_num)

/-- One half, as its f32 pattern reads, is a real number. -/
theorem isReal_half : IsReal (Ideal.ofBits .f32 0x3F000000#32) := ⟨_, ofBits_half_f32⟩

/-- An extended real whose absolute value is below plus infinity is a real number. -/
theorem isReal_of_abs_lt_top (x : EReal) (h : Ideal.cmp .olt (max x (-x)) ⊤ = 1#1) : IsReal x := by
  induction x using EReal.rec with
  | bot => exfalso; simp [Ideal.cmp] at h
  | coe r => exact ⟨r, rfl⟩
  | top => exfalso; simp [Ideal.cmp] at h

/-- The scalar shape has one index. -/
instance subsingleton_scalar_idx : Subsingleton (⟨0, ![]⟩ : Shape).Idx := ⟨fun a b => funext fun d => d.elim0⟩

/-- One conjunct of a finite-inputs precondition, `all (|x| < +∞)` reduced over every axis into one word, read at
    an entry: if the word is 1, the entry is a real number. -/
theorem isReal_of_all_finite {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1) (i : s.Idx) : IsReal (x i) := by
  have h := Host.reduce_andi_all _ _ hr hu ix0 e i
  rw [cmpf_apply, broadcastInDim_scalar_apply, constant_apply, ofBits_pos_inf_f32] at h
  exact isReal_of_abs_lt_top (x i) h

end Cert.Lib.RealEntries

end
-- ==== Proof.FiniteInputs.lean ====
/-
  What the precondition says: every float input holds real numbers.

  The precondition is the conjunction, over the nine float inputs, of "every entry's absolute value is below plus
  infinity".  On the extended reals `|x| < +∞` holds exactly when `x` is a real number: at either infinity the
  absolute value is `+∞` itself.  So under the precondition every entry of every float input is a real number,
  which is what the distributive law joining the two programs needs.
-/
import proofs.«160087_j8839042695664_2_alg».proof.Pre_finite_inputs
import proofs.«160087_j8839042695664_2_alg».proof.Proof.LibFiniteEntries

set_option pp.maxSteps 5000
set_option pp.deepTerms false

noncomputable section

namespace Cert.Sage

open Idealize.ShloMosaic Idealize.ShloMosaic.ValueIdx Cert.Lib.RealEntries

section
open Cert.Pre_finite_inputs

/-- Under the precondition every entry of each of the nine float inputs is a real number. -/
theorem inputs_real [Cert.Pre_finite_inputs.Facts] (a0 : FVec Ideal S40000x256 .f32) (a1 : FVec Ideal S80000x128 .f32)
    (a2 : FVec Ideal S60000x192 .f32) (a3 : FVec Ideal S128x256 .f32) (a4 : FVec Ideal S256x256 .f32)
    (a5 : FVec Ideal S256 .f32) (a6 : FVec Ideal S192x256 .f32) (a7 : FVec Ideal S256x256 .f32)
    (a8 : FVec Ideal S256 .f32) (a9 a10 : IVec S1280000 32) (a11 a12 : IVec S640000 32)
    (h : Cert.Pre_finite_inputs.fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have h0 := congrFun h ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all_finite a0 _ _ _ e0, isReal_of_all_finite a1 _ _ _ e1, isReal_of_all_finite a2 _ _ _ e2,
    isReal_of_all_finite a3 _ _ _ e3, isReal_of_all_finite a4 _ _ _ e4, isReal_of_all_finite a5 _ _ _ e5,
    isReal_of_all_finite a6 _ _ _ e6, isReal_of_all_finite a7 _ _ _ e7, isReal_of_all_finite a8 _ _ _ e8⟩

end

end Cert.Sage

end
-- ==== Proof.LibRealHostOps.lean ====
/-
  Arrays of real numbers under the host program's array operations.

  The facts of extended reals that are real numbers, restated at the host program's operations read at an index: an
  accumulating scatter, a slice, a broadcast of the scalar one or zero, the larger of an array and an array of ones, the
  host's quotient, and the host's spelling of the logistic function, 1 / (1 + exp(-z)).
-/
import Idealize.ShloMosaic.PureOps.Ideal.Laws
import Idealize.ShloMosaic.Lib.IdealHost
import Idealize.ShloMosaic.Lib.ValueIdx
import proofs.«160087_j8839042695664_2_alg».proof.Proof.LibRealEntries

noncomputable section

namespace Cert.Lib.RealEntries

open Idealize.ShloMosaic

/-- An accumulating scatter of real updates into an array of reals, read at an index, is real. -/
theorem isReal_scatterAdd {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd d x idx upd i) :=
  isReal_hostScatterAdd d x idx upd hx hu i

/-- A slice of an array of reals is an array of reals. -/
theorem isReal_slice {s t : Shape} (off : Fin s.rank → Nat) (x : s.Idx → EReal) (h : s.Slices off t)
    (hx : ∀ k, IsReal (x k)) (j : t.Idx) : IsReal (extractStridedSlice t off x h j) :=
  hx _

/-- The scalar one broadcast to any shape reads one. -/
theorem bcast_one_apply {T : Shape} (h : (⟨0, ![]⟩ : Shape).BroadcastsInDim T ![]) (j : T.Idx) :
    broadcastInDim T ![] h (constant (F := Ideal) ⟨0, ![]⟩ .f32 0x3F800000#32) j = 1 := by
  rw [ValueIdx.broadcastInDim_scalar_apply, ValueIdx.constant_apply, Ideal.ofBits_one_f32]

/-- The scalar zero broadcast to any shape reads zero. -/
theorem bcast_zero_apply {T : Shape} (h : (⟨0, ![]⟩ : Shape).BroadcastsInDim T ![]) (j : T.Idx) :
    broadcastInDim T ![] h (constant (F := Ideal) ⟨0, ![]⟩ .f32 0x00000000#32) j = 0 := by
  rw [ValueIdx.broadcastInDim_scalar_apply, ValueIdx.constant_apply, Ideal.ofBits_zero_f32]

theorem isReal_bcast_one {T : Shape} (h : (⟨0, ![]⟩ : Shape).BroadcastsInDim T ![]) (j : T.Idx) :
    IsReal (broadcastInDim T ![] h (constant (F := Ideal) ⟨0, ![]⟩ .f32 0x3F800000#32) j) := by
  rw [bcast_one_apply]; exact isReal_one

theorem isReal_bcast_zero {T : Shape} (h : (⟨0, ![]⟩ : Shape).BroadcastsInDim T ![]) (j : T.Idx) :
    IsReal (broadcastInDim T ![] h (constant (F := Ideal) ⟨0, ![]⟩ .f32 0x00000000#32) j) := by
  rw [bcast_zero_apply]; exact isReal_zero

/-- The larger of an array of reals and an array of ones is an array of positive reals. -/
theorem isPosReal_maximumf_one {s : Shape} (a b : FVec Ideal s .f32) (ha : ∀ i, IsReal (a i)) (hb : ∀ i, b i = 1) (i : s.Idx) :
    IsPosReal (maximumf a b i) := by
  rw [ValueIdx.maximumf_apply, hb]
  exact isPosReal_max_one (ha i)

/-- The host's quotient of a real by a positive real, read at an index, is real. -/
theorem isReal_hostDivf {s : Shape} (a b : FVec Ideal s .f32) (i : s.Idx) (ha : IsReal (a i)) (hb : IsPosReal (b i)) :
    IsReal (Host.divf a b i) :=
  isReal_div ha hb

/-- The host's spelling of the logistic function, 1 / (1 + exp(-z)) over arrays of ones, read at an index, is real. -/
theorem isReal_hostLogistic {s : Shape} (o1 o2 Z : FVec Ideal s .f32) (h1 : ∀ j, o1 j = 1) (h2 : ∀ j, o2 j = 1) (j : s.Idx) :
    IsReal (Host.divf o1 (addf o2 (Host.exp (Host.negf Z))) j) := by
  show IsReal (Ideal.div (o1 j) (o2 j + Ideal.exp (-(Z j))))
  rw [h1, h2]
  exact isReal_logistic (Z j)

end Cert.Lib.RealEntries

end
-- ==== Proof.LibRealArith.lean ====
/-
  Arithmetic that keeps an extended real a real number.

  At the ideal instance a float is an extended real, and an algebraic identity between two programs is often valid
  only where every entry is a real number. This file continues the facts of extended reals that are real numbers: a
  product, a difference, a negation and a maximum of reals are real; a product of positive reals is a positive real;
  the reciprocal square root of a positive real is a positive real (at zero it is plus infinity and at a negative real a
  junk value, so positivity is what is needed); a natural number at least one is a positive real; the f32 pattern of
  zero is real; a finite sum of products of reals, in particular an entry of a matrix product, is real; a sum of ones
  over a finite set is the number of its elements. Last, two operations that only move entries: every entry of a gather
  and every entry of a broadcast is an entry of the operand, so a property of all the operand's entries passes to all
  of theirs, whatever the index arrays hold.
-/
import Idealize.ShloMosaic.PureOps.Ideal.Laws
import Idealize.ShloMosaic.Lib.IdealHost
import Idealize.ShloMosaic.Lib.ValueIdx
import proofs.«160087_j8839042695664_2_alg».proof.Proof.LibRealEntries

noncomputable section

namespace Cert.Lib.RealEntries

open Idealize.ShloMosaic Idealize.ShloMosaic.ValueIdx
open scoped BigOperators

/-! ## Real numbers under the field operations and the maximum -/

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The negation of a real is real. -/
theorem IsReal.neg {x : EReal} (hx : IsReal x) : IsReal (-x) := by
  obtain ⟨a, rfl⟩ := hx
  exact ⟨-a, (EReal.coe_neg a).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem IsReal.max {x y : EReal} (hx : IsReal x) (hy : IsReal y) : IsReal (Max.max x y) := by
  obtain ⟨a, rfl⟩ := hx
  obtain ⟨b, rfl⟩ := hy
  exact ⟨Max.max a b, (EReal.coe_strictMono.monotone.map_max (a := a) (b := b)).symm⟩

/-- The larger of a real and zero is real. -/
theorem isReal_max_zero {x : EReal} (hx : IsReal x) : IsReal (Max.max x 0) :=
  hx.max isReal_zero

/-- A positive real is not zero. -/
theorem IsPosReal.ne_zero {x : EReal} (hx : IsPosReal x) : x ≠ 0 := by
  obtain ⟨a, ha, rfl⟩ := hx
  exact fun h => ha.ne' (EReal.coe_eq_zero.mp h)

/-- The product of two positive reals is a positive real. -/
theorem IsPosReal.mul {x y : EReal} (hx : IsPosReal x) (hy : IsPosReal y) : IsPosReal (x * y) := by
  obtain ⟨a, ha, rfl⟩ := hx
  obtain ⟨b, hb, rfl⟩ := hy
  exact ⟨a * b, mul_pos ha hb, (EReal.coe_mul a b).symm⟩

/-- The reciprocal square root of a positive real `r` is the positive real `1 / √r`. -/
theorem IsPosReal.rsqrt {x : EReal} (hx : IsPosReal x) : IsPosReal (Ideal.rsqrt x) := by
  obtain ⟨a, ha, rfl⟩ := hx
  rw [Ideal.rsqrt_coe, if_neg (not_lt.mpr ha.le), if_neg ha.ne']
  exact ⟨(Real.sqrt a)⁻¹, inv_pos.mpr (Real.sqrt_pos.mpr ha), rfl⟩

/-- A natural number at least one, as an extended real, is a positive real. -/
theorem isPosReal_natCast {k : ℕ} (hk : 1 ≤ k) : IsPosReal (((k : ℝ)) : EReal) :=
  ⟨(k : ℝ), Nat.cast_pos.mpr hk, rfl⟩

/-- A natural number, as an extended real, is real. -/
theorem isReal_natCast (k : ℕ) : IsReal (((k : ℝ)) : EReal) := ⟨(k : ℝ), rfl⟩

/-- The f32 pattern of zero is real (it is zero). -/
theorem isReal_ofBits_zero_f32 : IsReal (Ideal.ofBits .f32 0x00000000#32) := by
  rw [Ideal.ofBits_zero_f32]
  exact isReal_zero

/-! ## Sums -/

/-- A sum over a whole finite index set of products of reals is real. -/
theorem isReal_sum_mul {ι : Type*} [Fintype ι] (f g : ι → EReal) (hf : ∀ k, IsReal (f k)) (hg : ∀ k, IsReal (g k)) :
    IsReal (∑ k, f k * g k) :=
  isReal_sum _ _ fun k _ => (hf k).mul (hg k)

/-- AN ENTRY OF A MATRIX PRODUCT OF REAL MATRICES IS REAL: if every entry of `x : [M, K]` and of `w : [K, Q]` is real,
    so is `∑ k, x[r, k] * w[k, q]`. -/
theorem isReal_matmul_entry {M K Q : ℕ} (x : (⟨2, ![M, K]⟩ : Shape).Idx → EReal) (w : (⟨2, ![K, Q]⟩ : Shape).Idx → EReal)
    (hx : ∀ (r : Fin M) (k : Fin K), IsReal (x (ix2 r k))) (hw : ∀ (k : Fin K) (q : Fin Q), IsReal (w (ix2 k q)))
    (r : Fin M) (q : Fin Q) : IsReal (∑ k : Fin K, x (ix2 r k) * w (ix2 k q)) :=
  isReal_sum_mul _ _ (fun k => hx r k) (fun k => hw k q)

/-- A sum of ones over a finite set is the number of its elements. -/
theorem sum_one_eq_card {ι : Type*} (s : Finset ι) : (∑ _e ∈ s, (1 : EReal)) = ((s.card : ℝ) : EReal) := by
  classical
  induction s using Finset.induction_on with
  | empty => rw [Finset.sum_empty, Finset.card_empty, Nat.cast_zero, EReal.coe_zero]
  | insert a s ha ih =>
    rw [Finset.sum_insert ha, ih, Finset.card_insert_of_notMem ha, Nat.cast_add, Nat.cast_one, EReal.coe_add,
      EReal.coe_one, add_comm]

/-- A sum, over a finite set, of terms each equal to one is the number of the set's elements. -/
theorem sum_eq_card_of_eq_one {ι : Type*} (s : Finset ι) (f : ι → EReal) (h : ∀ e ∈ s, f e = 1) :
    ∑ e ∈ s, f e = ((s.card : ℝ) : EReal) := by
  rw [Finset.sum_congr rfl h]
  exact sum_one_eq_card s

/-! ## Operations that only move entries -/

/-- Every entry of a gather is an entry of its operand, whatever the start indices are (they are clamped). So what
    holds of every entry of the operand holds of every entry of the gather. -/
theorem gather_forall {α : Type} {P : α → Prop} {s si t : Shape} {w : Nat} (d : GatherDims s si t) (x : s.Idx → α)
    (idx : IVec si w) (hx : ∀ k, P (x k)) (j : t.Idx) : P (Host.gather d x idx j) :=
  hx _

/-- Every entry of a `broadcast_in_dim` is an entry of its operand. So what holds of every entry of the operand holds of
    every entry of the broadcast. -/
theorem broadcastInDim_forall {α : Type} {P : α → Prop} {s t : Shape} (dims : Fin s.rank → Fin t.rank)
    (h : s.BroadcastsInDim t dims) (x : s.Idx → α) (hx : ∀ k, P (x k)) (j : t.Idx) : P (broadcastInDim t dims h x j) :=
  hx _

/-- The host's reciprocal square root at an index is the ideal instance's of the element. -/
theorem hostRsqrt_apply {s : Shape} {φ : FTy} (x : FVec Ideal s φ) (i : s.Idx) :
    Host.rsqrt (F := Ideal) x i = Ideal.rsqrt (x i) := rfl

/-- The host's reciprocal square root of an array of positive reals is an array of positive reals. -/
theorem isPosReal_hostRsqrt {s : Shape} {φ : FTy} (x : FVec Ideal s φ) (i : s.Idx) (hx : IsPosReal (x i)) :
    IsPosReal (Host.rsqrt (F := Ideal) x i) := by
  rw [hostRsqrt_apply]
  exact hx.rsqrt

/-- The product of two arrays of reals, read at an index, is real. -/
theorem isReal_mulf {s : Shape} {φ : FTy} (a b : FVec Ideal s φ) (i : s.Idx) (ha : IsReal (a i)) (hb : IsReal (b i)) :
    IsReal (mulf a b i) := by
  rw [mulf_apply]
  exact ha.mul hb

end Cert.Lib.RealEntries

end
-- ==== Proof.StagesReal.lean ====
/-
  The shared stages hold real numbers.

  A neighbour sum is the zero array plus, at each entry, finitely many gathered entries of a float input; gathering
  only moves entries, so under the precondition (every float input entry is real) every neighbour sum is real.  A
  neighbour count is zero plus finitely many ones, so it is real, and clamped from below at one it is a positive
  real.
-/
import proofs.«160087_j8839042695664_2_alg».proof.Defs
import proofs.«160087_j8839042695664_2_alg».proof.Proof.Stages
import proofs.«160087_j8839042695664_2_alg».proof.Proof.FiniteInputs
import proofs.«160087_j8839042695664_2_alg».proof.Proof.LibRealHostOps
import proofs.«160087_j8839042695664_2_alg».proof.Proof.LibRealArith

set_option pp.maxSteps 5000
set_option pp.deepTerms false

noncomputable section

namespace Cert.Sage

open Cert.KernelIdeal Idealize.ShloMosaic Idealize.ShloMosaic.TcCoe Idealize.SL.Sem Cert.Lib.RealEntries

variable (m : (ℓ : Loc nD τ sig) → Buf (Elt Ideal) ℓ)

/-- Under the precondition, on every device every entry of each float argument is a real number. -/
theorem args_real [Cert.Pre_finite_inputs.Facts] (hpre : Cert.Pre_KernelIdeal m) (c : Dev nD) :
    (∀ i, IsReal (m ((c : Thread nD τ).loc main_arg0) i)) ∧ (∀ i, IsReal (m ((c : Thread nD τ).loc main_arg1) i))
      ∧ (∀ i, IsReal (m ((c : Thread nD τ).loc main_arg2) i)) ∧ (∀ i, IsReal (m ((c : Thread nD τ).loc main_arg3) i))
      ∧ (∀ i, IsReal (m ((c : Thread nD τ).loc main_arg4) i)) ∧ (∀ i, IsReal (m ((c : Thread nD τ).loc main_arg5) i))
      ∧ (∀ i, IsReal (m ((c : Thread nD τ).loc main_arg6) i)) ∧ (∀ i, IsReal (m ((c : Thread nD τ).loc main_arg7) i))
      ∧ (∀ i, IsReal (m ((c : Thread nD τ).loc main_arg8) i)) :=
  inputs_real _ _ _ _ _ _ _ _ _ _ _ _ _ (hpre c)

/-- Relation p's neighbour sums are real when the source features are. -/
theorem sumP_real (c : Dev nD) (h1 : ∀ i, IsReal (m ((c : Thread nD τ).loc main_arg1) i)) (i : S40000x128.Idx) :
    IsReal (sumP m c i) := by
  unfold sumP Cert.ReferenceIdeal.Read.val_main_v9
  refine isReal_scatterAdd _ _ _ _ (fun j => ?_) (fun j => ?_) i
  · unfold Cert.ReferenceIdeal.Read.val_main_v7 Cert.ReferenceIdeal.Read.val_main_cst
    exact isReal_bcast_zero _ j
  · unfold Cert.ReferenceIdeal.Read.val_main_v6
    exact gather_forall (P := IsReal) _ _ _ h1 j

/-- Relation q's neighbour sums are real when the source features are. -/
theorem sumQ_real (c : Dev nD) (h2 : ∀ i, IsReal (m ((c : Thread nD τ).loc main_arg2) i)) (i : S40000x192.Idx) :
    IsReal (sumQ m c i) := by
  unfold sumQ Cert.ReferenceIdeal.Read.val_main_v34
  refine isReal_scatterAdd _ _ _ _ (fun j => ?_) (fun j => ?_) i
  · unfold Cert.ReferenceIdeal.Read.val_main_v32 Cert.ReferenceIdeal.Read.val_main_cst_6
    exact isReal_bcast_zero _ j
  · unfold Cert.ReferenceIdeal.Read.val_main_v31
    exact gather_forall (P := IsReal) _ _ _ h2 j

/-- Relation p's clamped neighbour counts are positive reals. -/
theorem cntP_pos (c : Dev nD) (i : S40000.Idx) : IsPosReal (cntP m c i) := by
  unfold cntP Cert.ReferenceIdeal.Read.val_main_v15
  refine isPosReal_maximumf_one _ _ (fun j => ?_) (fun j => ?_) i
  · unfold Cert.ReferenceIdeal.Read.val_main_v13
    refine isReal_scatterAdd _ _ _ _ (fun k => ?_) (fun k => ?_) j
    · unfold Cert.ReferenceIdeal.Read.val_main_v11 Cert.ReferenceIdeal.Read.val_main_cst_2
      exact isReal_bcast_zero _ k
    · unfold Cert.ReferenceIdeal.Read.val_main_v10 Cert.ReferenceIdeal.Read.val_main_cst_1
      exact isReal_bcast_one _ k
  · unfold Cert.ReferenceIdeal.Read.val_main_v14 Cert.ReferenceIdeal.Read.val_main_cst_3
    exact bcast_one_apply _ j

/-- Relation q's clamped neighbour counts are positive reals. -/
theorem cntQ_pos (c : Dev nD) (i : S40000.Idx) : IsPosReal (cntQ m c i) := by
  unfold cntQ Cert.ReferenceIdeal.Read.val_main_v40
  refine isPosReal_maximumf_one _ _ (fun j => ?_) (fun j => ?_) i
  · unfold Cert.ReferenceIdeal.Read.val_main_v38
    refine isReal_scatterAdd _ _ _ _ (fun k => ?_) (fun k => ?_) j
    · unfold Cert.ReferenceIdeal.Read.val_main_v36 Cert.ReferenceIdeal.Read.val_main_cst_8
      exact isReal_bcast_zero _ k
    · unfold Cert.ReferenceIdeal.Read.val_main_v35 Cert.ReferenceIdeal.Read.val_main_cst_7
      exact isReal_bcast_one _ k
  · unfold Cert.ReferenceIdeal.Read.val_main_v39 Cert.ReferenceIdeal.Read.val_main_cst_9
    exact bcast_one_apply _ j

/-- The array of ones reads one. -/
theorem ones_apply (i : S40000.Idx) : ones i = 1 := by
  unfold ones
  exact bcast_one_apply _ i

end Cert.Sage

end
-- ==== Proof.LibColumnForms.lean ====
/-
  Small general lemmas that read, at an index written by coordinates, the layout steps a row-wise
  reduction with kept dimensions goes through: the column casts [a] → [a, 1] and [a, 1] → [a, b],
  a sum and a maximum along the lanes of a matrix, and a plain M×K by K×N matrix product into a zero
  accumulator. All are stated over variables of literal-rank shapes and `Fin` coordinates, at the
  extended reals.
-/
import Idealize.ShloMosaic.Lib.ValueLayout
import Idealize.ShloMosaic.PureOps.Ideal.Laws

noncomputable section

namespace Cert.Attn.Pay

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

/-- A reciprocal square root at an index is the extended reals' one of the element … -/
theorem rsqrt_apply {s : Shape} {φ : FTy} (x : FVec Ideal s φ) (i : s.Idx) : rsqrt x i = Ideal.rsqrt (x i) := rfl
/-- … and an exponential the extended reals' exponential of the element. -/
theorem exp_apply {s : Shape} {φ : FTy} (x : FVec Ideal s φ) (i : s.Idx) : exp x i = Ideal.exp (x i) := rfl

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an `[a, b]` matrix, read at row `i`: the sum over the lanes of that row. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src _ h hφ hacc (ix1 i)).trans ?_
  refine Finset.sum_congr rfl fun k _ => congrArg src ?_
  funext c
  match c with
  | ⟨0, _⟩ => rfl
  | ⟨1, _⟩ => rfl

/-- The maximum along the lanes of an `[a, b]` matrix, read at row `i`: the fold of `max` over the lanes of that
    row, from the value of the starting word. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src _ h hφ hacc (ix1 i)).trans ?_
  refine congrArg (fun f => (Finset.univ : Finset (Fin b)).fold max (Ideal.ofBits .f32 0xFF800000#32) f) ?_
  funext k
  refine congrArg src ?_
  funext c
  match c with
  | ⟨0, _⟩ => rfl
  | ⟨1, _⟩ => rfl

/-- A plain `M × K` by `K × N` matrix product into the zero accumulator, read at `(i, j)`: the sum over the
    contraction coordinate of the operands' products. `D` is any record of those dimension numbers. -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (i : Fin M) (j : Fin N) :
    matmul D prec lhs rhs (constant (F := Ideal) ⟨2, ![M, N]⟩ .f32 0x00000000#32) (ix2 i j)
      = ∑ k : Fin K, lhs (ix2 i k) * rhs (ix2 k j) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.Attn.Pay

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.LibDualLinear.lean ====
/-
  Two matrix products added to a row of biases, on the extended reals, read at an entry.

  For matrices `x₁, x₂ : [a, K]`, `w₁, w₂ : [K, n]` and a bias per column, the entry `(r, q)` of
  `x₁ · w₁ + x₂ · w₂ + b` is `(∑ₖ x₁(r,k) · w₁(k,q)) + (∑ₖ x₂(r,k) · w₂(k,q)) + b(q)`.  The same number is
  reached two ways: by two products into zero accumulators, added, plus the bias row repeated down the rows
  (`kernel_entry`), and by two host products, added, plus the bias vector laid out as one row and then repeated
  (`host_entry`).  Only the order of the additions matters here, and it is the same on both sides, so nothing
  is asked of the numbers: the lemmas hold for every extended real.

  Last, a product over a contraction axis of extent `K + K'` whose left operand is two matrices side by side is
  the sum of the two products over `K` and `K'` (`sum_split`): a finite sum split at `K`.
-/
import Idealize.ShloMosaic.Lib.Pipeline.Value
import Idealize.ShloMosaic.Lib.ValueIdx
import Idealize.ShloMosaic.PureOps.Ideal.Laws
import proofs.«160087_j8839042695664_2_alg».proof.Proof.LibRowOps

namespace Cert.DualLinear

open Idealize.ShloMosaic Idealize.ShloMosaic.ValueIdx
open scoped BigOperators

/-- Entry `(r, q)` of `x₁ · w₁ + x₂ · w₂ + b`. -/
noncomputable def entry {a K n : ℕ} {φ₁ φ₂ : FTy} (x1 x2 : FVec Ideal ⟨2, ![a, K]⟩ φ₁) (w1 w2 : FVec Ideal ⟨2, ![K, n]⟩ φ₂)
    (b : Fin n → EReal) (r : Fin a) (q : Fin n) : EReal :=
  (∑ k : Fin K, x1 (ix2 r k) * w1 (ix2 k q)) + (∑ k : Fin K, x2 (ix2 r k) * w2 (ix2 k q)) + b q

/-- The entry depends only on row `r` of the left matrices, column `q` of the right ones and the bias of column `q`:
    two settings that agree there, of whatever extents, have the same entry. -/
theorem entry_congr {a a' K n n' : ℕ} {φ₁ φ₂ φ₁' φ₂' : FTy}
    (x1 x2 : FVec Ideal ⟨2, ![a, K]⟩ φ₁) (w1 w2 : FVec Ideal ⟨2, ![K, n]⟩ φ₂) (b : Fin n → EReal)
    (x1' x2' : FVec Ideal ⟨2, ![a', K]⟩ φ₁') (w1' w2' : FVec Ideal ⟨2, ![K, n']⟩ φ₂') (b' : Fin n' → EReal)
    (r : Fin a) (q : Fin n) (r' : Fin a') (q' : Fin n')
    (hx1 : ∀ k, x1 (ix2 r k) = x1' (ix2 r' k)) (hx2 : ∀ k, x2 (ix2 r k) = x2' (ix2 r' k))
    (hw1 : ∀ k, w1 (ix2 k q) = w1' (ix2 k q')) (hw2 : ∀ k, w2 (ix2 k q) = w2' (ix2 k q')) (hb : b q = b' q') :
    entry x1 x2 w1 w2 b r q = entry x1' x2' w1' w2' b' r' q' := by
  have h1 : (∑ k : Fin K, x1 (ix2 r k) * w1 (ix2 k q)) = ∑ k : Fin K, x1' (ix2 r' k) * w1' (ix2 k q') :=
    Finset.sum_congr rfl fun k _ => by rw [hx1 k, hw1 k]
  have h2 : (∑ k : Fin K, x2 (ix2 r k) * w2 (ix2 k q)) = ∑ k : Fin K, x2' (ix2 r' k) * w2' (ix2 k q') :=
    Finset.sum_congr rfl fun k _ => by rw [hx2 k, hw2 k]
  unfold entry
  rw [h1, h2, hb]

/-- Two products into zero accumulators, added, plus a one-row bias repeated down the rows: at an entry. -/
theorem kernel_entry {a K n : ℕ} {φ₁ φ₂ : FTy} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x1 x2 : FVec Ideal ⟨2, ![a, K]⟩ φ₁) (w1 w2 : FVec Ideal ⟨2, ![K, n]⟩ φ₂)
    (b : FVec Ideal ⟨2, ![1, n]⟩ .f32) (hb : (⟨2, ![1, n]⟩ : Shape).Broadcasts ⟨2, ![a, n]⟩) (hn : n ≠ 1)
    (r : Fin a) (q : Fin n) :
    addf (addf (matmul d prec x1 w1 (constant (F := Ideal) ⟨2, ![a, n]⟩ .f32 0x00000000#32))
        (matmul d prec x2 w2 (constant (F := Ideal) ⟨2, ![a, n]⟩ .f32 0x00000000#32)))
      (broadcastTo ⟨2, ![a, n]⟩ b hb) (ix2 r q)
      = entry x1 x2 w1 w2 (fun q => b (ix2 0 q)) r q := by
  rw [addf_apply, addf_apply, RowOps.matmul_zero_entry d hr hs hl0 hl1 hr0 hr1,
    RowOps.matmul_zero_entry d hr hs hl0 hl1 hr0 hr1]
  rw [broadcastTo_apply b hb (ix2 r q) (ix2 0 q) (fun ax => by
    match ax with
    | ⟨0, _⟩ => simp
    | ⟨1, _⟩ => simp [hn])]
  rfl

/-- A vector laid out as one row, read at column `q`. -/
theorem row_of_vector {n : ℕ} {α : Type} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine (shapeCast_addUnit_apply ![n] b h (ix2 0 q)).trans (congrArg b ?_)
  funext a
  match a with
  | ⟨0, _⟩ => rfl

/-- A bias vector laid out as one row and repeated down the rows, at an entry. -/
theorem bias_entry {a n : ℕ} {α : Type} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1) (r : Fin a) (q : Fin n) :
    broadcastInDim ⟨2, ![a, n]⟩ ![0, 1] h2 (broadcastInDim ⟨2, ![1, n]⟩ ![1] h1 b) (ix2 r q) = b (ix1 q) := by
  rw [broadcastInDim_apply ![0, 1] h2 _ (ix2 r q) (ix2 0 q) (fun ax => by
    match ax with
    | ⟨0, _⟩ => simp
    | ⟨1, _⟩ => simp [hn]; rfl)]
  rw [broadcastInDim_apply ![1] h1 b (ix2 0 q) (ix1 q) (fun ax => by
    match ax with
    | ⟨0, _⟩ => simp [hn]; rfl)]

/-- Two host products, added, plus a bias vector laid out as one row and repeated down the rows: at an entry. -/
theorem host_entry {a K n : ℕ} {φ₁ φ₂ : FTy} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x1 x2 : FVec Ideal ⟨2, ![a, K]⟩ φ₁) (w1 w2 : FVec Ideal ⟨2, ![K, n]⟩ φ₂)
    (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1)
    (r : Fin a) (q : Fin n) :
    addf (addf (Host.dotGeneral (F := Ideal) d prec x1 w1) (Host.dotGeneral (F := Ideal) d prec x2 w2))
      (broadcastInDim ⟨2, ![a, n]⟩ ![0, 1] h2 (broadcastInDim ⟨2, ![1, n]⟩ ![1] h1 b)) (ix2 r q)
      = entry x1 x2 w1 w2 (fun q => b (ix1 q)) r q := by
  rw [addf_apply, addf_apply, RowOps.dotGeneral_entry d hr hs hl0 hl1 hr0 hr1,
    RowOps.dotGeneral_entry d hr hs hl0 hl1 hr0 hr1]
  rw [bias_entry b h1 h2 hn r q]
  rfl

/-- A sum over `K + K'` terms is the sum of its first `K` and its last `K'` terms. -/
theorem sum_split {K K' : ℕ} (f : Fin (K + K') → EReal) :
    ∑ k : Fin (K + K'), f k = (∑ k : Fin K, f (Fin.castAdd K' k)) + ∑ k : Fin K', f (Fin.natAdd K k) :=
  Fin.sum_univ_add f

end Cert.DualLinear
-- ==== Proof.BlockReads.lean ====
/-
  What the blocks of one grid point hold.

  The grid has 20 points; point `t` works on rows `2000·t … 2000·t + 1999`.  The four row-tiled inputs (the two
  neighbour sums, the packed reciprocal counts, the node's own features) hand the body those rows; the three
  weight inputs are one block each, the same at every point.  So row `r` of a row-tiled block is row
  `2000·t + r` of its array, and an entry of a weight block is the same entry of its array.  Read through the
  expressions the host program computed for these arrays, a block entry is: a neighbour sum; one over a clamped
  neighbour count; an own feature; one half times a neighbour weight (the first 128 rows of the stack are relation
  p's, the other 192 relation q's); one half times the sum of two root weights; one half times the sum of two biases.
-/
import proofs.«160087_j8839042695664_2_alg».proof.Proof.Gen.KernelIdeal.Value
import proofs.«160087_j8839042695664_2_alg».proof.Proof.KernelAgg
import proofs.«160087_j8839042695664_2_alg».proof.Proof.KernelWeights
import proofs.«160087_j8839042695664_2_alg».proof.Proof.StagesReal
import proofs.«160087_j8839042695664_2_alg».proof.Proof.LibColumnForms
import proofs.«160087_j8839042695664_2_alg».proof.Proof.LibDualLinear
import Idealize.ShloMosaic.Lib.Pipeline.Value
import Idealize.ShloMosaic.Lib.ValueIdx
import Idealize.ShloMosaic.Lib.IdealHost

set_option pp.maxSteps 5000
set_option pp.deepTerms false
set_option Elab.async false

noncomputable section

namespace Cert.Sage

open Cert.KernelIdeal Cert.KernelIdeal.Gen Idealize.ShloMosaic Idealize.ShloMosaic.TcCoe Idealize.SL.Sem
open Idealize.ShloMosaic.ValueIdx Cert.Lib.RealEntries

variable (m : (ℓ : Loc nD τ sig) → Buf (Elt Ideal) ℓ)

/-- The printed index maps, decided over the 20 grid points: a row-tiled window's block index is the point's
    number along the rows and zero along the columns; a weight window's is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `r` of point `t`'s blocks is this row of the arrays. -/
def rowOf (t : Fin cfg0.N) (r : Fin 2000) : Fin 40000 :=
  ⟨t.val * 2000 + r.val, by
    have hN : cfg0.N = 20 := N_0
    have ht := t.isLt
    have hr := r.isLt
    omega⟩

theorem rowOf_val (t : Fin cfg0.N) (r : Fin 2000) : (rowOf t r).val = t.val * 2000 + r.val := rfl

/-! ## Where a block entry sits in its array -/

theorem emb0 (t : Fin cfg0.N) (r : Fin 2000) (d : Fin 128) :
    ((cfg0.win 0).blk t).view.emb (ix2 r d) = (ix2 (rowOf t r) d : S40000x128.Idx) := by
  obtain ⟨e00, e01, -⟩ := idx_facts t
  funext a; apply Fin.ext
  match a with
  | ⟨0, _⟩ => show win0_0.index t (0 : Fin 2) * 2000 + 1 * r.val = t.val * 2000 + r.val; omega
  | ⟨1, _⟩ => show win0_0.index t (1 : Fin 2) * 128 + 1 * d.val = d.val; omega

theorem emb1 (t : Fin cfg0.N) (r : Fin 2000) (d : Fin 192) :
    ((cfg0.win 1).blk t).view.emb (ix2 r d) = (ix2 (rowOf t r) d : S40000x192.Idx) := by
  obtain ⟨-, -, e10, e11, -⟩ := idx_facts t
  funext a; apply Fin.ext
  match a with
  | ⟨0, _⟩ => show win0_1.index t (0 : Fin 2) * 2000 + 1 * r.val = t.val * 2000 + r.val; omega
  | ⟨1, _⟩ => show win0_1.index t (1 : Fin 2) * 192 + 1 * d.val = d.val; omega

theorem emb2 (t : Fin cfg0.N) (r : Fin 2000) (u : Fin 2) :
    ((cfg0.win 2).blk t).view.emb (ix2 r u) = (ix2 (rowOf t r) u : S40000x2.Idx) := by
  obtain ⟨-, -, -, -, e20, e21, -⟩ := idx_facts t
  funext a; apply Fin.ext
  match a with
  | ⟨0, _⟩ => show win0_2.index t (0 : Fin 2) * 2000 + 1 * r.val = t.val * 2000 + r.val; omega
  | ⟨1, _⟩ => show win0_2.index t (1 : Fin 2) * 2 + 1 * u.val = u.val; omega

theorem emb3 (t : Fin cfg0.N) (r : Fin 2000) (k : Fin 256) :
    ((cfg0.win 3).blk t).view.emb (ix2 r k) = (ix2 (rowOf t r) k : S40000x256.Idx) := by
  obtain ⟨-, -, -, -, -, -, e30, e31, -⟩ := idx_facts t
  funext a; apply Fin.ext
  match a with
  | ⟨0, _⟩ => show win0_3.index t (0 : Fin 2) * 2000 + 1 * r.val = t.val * 2000 + r.val; omega
  | ⟨1, _⟩ => show win0_3.index t (1 : Fin 2) * 256 + 1 * k.val = k.val; omega

theorem emb4 (t : Fin cfg0.N) (j : Fin 320) (q : Fin 256) :
    ((cfg0.win 4).blk t).view.emb (ix2 j q) = (ix2 j q : S320x256.Idx) := by
  obtain ⟨-, -, -, -, -, -, -, -, e40, e41, -⟩ := idx_facts t
  funext a; apply Fin.ext
  match a with
  | ⟨0, _⟩ => show win0_4.index t (0 : Fin 2) * 320 + 1 * j.val = j.val; omega
  | ⟨1, _⟩ => show win0_4.index t (1 : Fin 2) * 256 + 1 * q.val = q.val; omega

theorem emb5 (t : Fin cfg0.N) (k : Fin 256) (q : Fin 256) :
    ((cfg0.win 5).blk t).view.emb (ix2 k q) = (ix2 k q : S256x256.Idx) := by
  obtain ⟨-, -, -, -, -, -, -, -, -, -, e50, e51, -⟩ := idx_facts t
  funext a; apply Fin.ext
  match a with
  | ⟨0, _⟩ => show win0_5.index t (0 : Fin 2) * 256 + 1 * k.val = k.val; omega
  | ⟨1, _⟩ => show win0_5.index t (1 : Fin 2) * 256 + 1 * q.val = q.val; omega

theorem emb6 (t : Fin cfg0.N) (u : Fin 1) (q : Fin 256) :
    ((cfg0.win 6).blk t).view.emb (ix2 u q) = (ix2 u q : S1x256.Idx) := by
  obtain ⟨-, -, -, -, -, -, -, -, -, -, -, -, e60, e61, -⟩ := idx_facts t
  funext a; apply Fin.ext
  match a with
  | ⟨0, _⟩ => show win0_6.index t (0 : Fin 2) * 1 + 1 * u.val = u.val; omega
  | ⟨1, _⟩ => show win0_6.index t (1 : Fin 2) * 256 + 1 * q.val = q.val; omega

theorem emb7 (t : Fin cfg0.N) (r : Fin 2000) (q : Fin 256) :
    ((cfg0.win 7).blk t).view.emb (ix2 r q) = (ix2 (rowOf t r) q : S40000x256.Idx) := by
  obtain ⟨-, -, -, -, -, -, -, -, -, -, -, -, -, -, e70, e71⟩ := idx_facts t
  funext a; apply Fin.ext
  match a with
  | ⟨0, _⟩ => show win0_7.index t (0 : Fin 2) * 2000 + 1 * r.val = t.val * 2000 + r.val; omega
  | ⟨1, _⟩ => show win0_7.index t (1 : Fin 2) * 256 + 1 * q.val = q.val; omega

/-! ## A block entry of ANY array held in a window's buffer -/

theorem read0 (G : FVec Ideal S40000x128 .f32) (t : Fin cfg0.N) (r : Fin 2000) (d : Fin 128) :
    ((cfg0.win 0).blk t).view.read (Elt Ideal) G (ix2 r d) = G (ix2 (rowOf t r) d) := by
  show G (((cfg0.win 0).blk t).view.emb (ix2 r d)) = _
  rw [emb0]

theorem read1 (G : FVec Ideal S40000x192 .f32) (t : Fin cfg0.N) (r : Fin 2000) (d : Fin 192) :
    ((cfg0.win 1).blk t).view.read (Elt Ideal) G (ix2 r d) = G (ix2 (rowOf t r) d) := by
  show G (((cfg0.win 1).blk t).view.emb (ix2 r d)) = _
  rw [emb1]

theorem read2 (G : FVec Ideal S40000x2 .f32) (t : Fin cfg0.N) (r : Fin 2000) (u : Fin 2) :
    ((cfg0.win 2).blk t).view.read (Elt Ideal) G (ix2 r u) = G (ix2 (rowOf t r) u) := by
  show G (((cfg0.win 2).blk t).view.emb (ix2 r u)) = _
  rw [emb2]

theorem read3 (G : FVec Ideal S40000x256 .f32) (t : Fin cfg0.N) (r : Fin 2000) (k : Fin 256) :
    ((cfg0.win 3).blk t).view.read (Elt Ideal) G (ix2 r k) = G (ix2 (rowOf t r) k) := by
  show G (((cfg0.win 3).blk t).view.emb (ix2 r k)) = _
  rw [emb3]

theorem read4 (G : FVec Ideal S320x256 .f32) (t : Fin cfg0.N) (j : Fin 320) (q : Fin 256) :
    ((cfg0.win 4).blk t).view.read (Elt Ideal) G (ix2 j q) = G (ix2 j q) := by
  show G (((cfg0.win 4).blk t).view.emb (ix2 j q)) = _
  rw [emb4]

theorem read5 (G : FVec Ideal S256x256 .f32) (t : Fin cfg0.N) (k : Fin 256) (q : Fin 256) :
    ((cfg0.win 5).blk t).view.read (Elt Ideal) G (ix2 k q) = G (ix2 k q) := by
  show G (((cfg0.win 5).blk t).view.emb (ix2 k q)) = _
  rw [emb5]

theorem read6 (G : FVec Ideal S1x256 .f32) (t : Fin cfg0.N) (u : Fin 1) (q : Fin 256) :
    ((cfg0.win 6).blk t).view.read (Elt Ideal) G (ix2 u q) = G (ix2 u q) := by
  show G (((cfg0.win 6).blk t).view.emb (ix2 u q)) = _
  rw [emb6]

/-! ## What a block entry holds -/

/-- An argument buffer, as the array of extended reals it is. -/
abbrev asArray (s : Shape) (x : FVec Ideal s .f32) : FVec Ideal s .f32 := x

/-- Relation p's neighbour-sum block: rows of the neighbour sums. -/
theorem blk0 (c : Dev nD) (t : Fin cfg0.N) (r : Fin 2000) (d : Fin 128) :
    iblk m c 0 t (ix2 r d) = sumP m c (ix2 (rowOf t r) d) := by
  unfold iblk
  show ((cfg0.win 0).blk t).view.read (Elt Ideal) (V m c main_v9) (ix2 r d) = _
  rw [arr_sumP, read0]

/-- Relation q's neighbour-sum block. -/
theorem blk1 (c : Dev nD) (t : Fin cfg0.N) (r : Fin 2000) (d : Fin 192) :
    iblk m c 1 t (ix2 r d) = sumQ m c (ix2 (rowOf t r) d) := by
  unfold iblk
  show ((cfg0.win 1).blk t).view.read (Elt Ideal) (V m c main_v23) (ix2 r d) = _
  rw [arr_sumQ, read1]

/-- The packed block's first column: one over relation p's clamped count. -/
theorem blk2p (c : Dev nD) (t : Fin cfg0.N) (r : Fin 2000) :
    iblk m c 2 t (ix2 r (0 : Fin 2)) = Ideal.div 1 (cntP m c (ix1 (rowOf t r))) := by
  unfold iblk
  show ((cfg0.win 2).blk t).view.read (Elt Ideal) (V m c main_v38) (ix2 r (0 : Fin 2)) = _
  rw [arr_inv, read2]
  refine (concatenate_pair_apply_left (t := S40000x2) (s₁ := S40000x1) (s₂ := S40000x1) (1 : Fin 2) _ _
    concatenates_S40000x1_S40000x1_S40000x2_d1 (ix2 (rowOf t r) (0 : Fin 2) : S40000x2.Idx) rfl
    (ix2 (rowOf t r) (0 : Fin 1)) (fun b => ?_)).trans ?_
  · match b with
    | ⟨0, _⟩ => rfl
    | ⟨1, _⟩ => rfl
  · rw [Cert.Attn.Pay.shapeCast_a_a1_apply, hostDivf_apply, ones_apply]

/-- The packed block's second column: one over relation q's clamped count. -/
theorem blk2q (c : Dev nD) (t : Fin cfg0.N) (r : Fin 2000) :
    iblk m c 2 t (ix2 r (1 : Fin 2)) = Ideal.div 1 (cntQ m c (ix1 (rowOf t r))) := by
  unfold iblk
  show ((cfg0.win 2).blk t).view.read (Elt Ideal) (V m c main_v38) (ix2 r (1 : Fin 2)) = _
  rw [arr_inv, read2]
  refine (concatenate_pair_apply_right (t := S40000x2) (s₁ := S40000x1) (s₂ := S40000x1) (1 : Fin 2) _ _
    concatenates_S40000x1_S40000x1_S40000x2_d1 (ix2 (rowOf t r) (1 : Fin 2) : S40000x2.Idx) rfl rfl
    (ix2 (rowOf t r) (0 : Fin 1)) (fun b hb => ?_) ?_).trans ?_
  · match b with
    | ⟨0, _⟩ => rfl
    | ⟨1, _⟩ => exact absurd rfl hb
  · rfl
  · rw [Cert.Attn.Pay.shapeCast_a_a1_apply, hostDivf_apply, ones_apply]

/-- The own-feature block: rows of the first argument. -/
theorem blk3 (c : Dev nD) (t : Fin cfg0.N) (r : Fin 2000) (k : Fin 256) :
    iblk m c 3 t (ix2 r k) = m ((c : Thread nD τ).loc main_arg0) (ix2 (rowOf t r) k) := by
  unfold iblk
  show ((cfg0.win 3).blk t).view.read (Elt Ideal) (V m c main_arg0) (ix2 r k) = _
  rw [V_main_arg0, read3]

/-- The stacked weights' first 128 rows: one half times relation p's neighbour weights. -/
theorem blk4p (c : Dev nD) (t : Fin cfg0.N) (d : Fin 128) (q : Fin 256) :
    iblk m c 4 t (ix2 (Fin.castAdd 192 d) q : S320x256.Idx) = Ideal.ofBits .f32 0x3F000000#32 * m ((c : Thread nD τ).loc main_arg3) (ix2 d q) := by
  unfold iblk
  show ((cfg0.win 4).blk t).view.read (Elt Ideal) (V m c main_v41) (ix2 (Fin.castAdd 192 d) q : S320x256.Idx) = _
  rw [arr_wl, read4, mulf_apply, broadcastInDim_scalar_apply, constant_apply]
  refine congrArg (fun z => Ideal.ofBits .f32 0x3F000000#32 * z) ?_
  refine concatenate_pair_apply_left (t := S320x256) (s₁ := S128x256) (s₂ := S192x256) (0 : Fin 2) _ _
    concatenates_S128x256_S192x256_S320x256_d0 (ix2 (Fin.castAdd 192 d) q : S320x256.Idx) rfl (ix2 d q) (fun b => ?_)
  match b with
  | ⟨0, _⟩ => rfl
  | ⟨1, _⟩ => rfl

/-- The stacked weights' last 192 rows: one half times relation q's neighbour weights. -/
theorem blk4q (c : Dev nD) (t : Fin cfg0.N) (d : Fin 192) (q : Fin 256) :
    iblk m c 4 t (ix2 (Fin.natAdd 128 d) q : S320x256.Idx) = Ideal.ofBits .f32 0x3F000000#32 * m ((c : Thread nD τ).loc main_arg6) (ix2 d q) := by
  unfold iblk
  show ((cfg0.win 4).blk t).view.read (Elt Ideal) (V m c main_v41) (ix2 (Fin.natAdd 128 d) q : S320x256.Idx) = _
  rw [arr_wl, read4, mulf_apply, broadcastInDim_scalar_apply, constant_apply]
  refine congrArg (fun z => Ideal.ofBits .f32 0x3F000000#32 * z) ?_
  refine concatenate_pair_apply_right (t := S320x256) (s₁ := S128x256) (s₂ := S192x256) (0 : Fin 2) _ _
    concatenates_S128x256_S192x256_S320x256_d0 (ix2 (Fin.natAdd 128 d) q : S320x256.Idx) rfl rfl (ix2 d q) (fun b hb => ?_) ?_
  · match b with
    | ⟨0, _⟩ => exact absurd rfl hb
    | ⟨1, _⟩ => rfl
  · show d.val + 128 = 128 + d.val
    omega

/-- The summed root weights, halved. -/
theorem blk5 (c : Dev nD) (t : Fin cfg0.N) (k : Fin 256) (q : Fin 256) :
    iblk m c 5 t (ix2 k q) = Ideal.ofBits .f32 0x3F000000#32 * (asArray S256x256 (m ((c : Thread nD τ).loc main_arg4)) (ix2 k q) + asArray S256x256 (m ((c : Thread nD τ).loc main_arg7)) (ix2 k q)) := by
  unfold iblk
  show ((cfg0.win 5).blk t).view.read (Elt Ideal) (V m c main_v44) (ix2 k q) = _
  rw [arr_wr, read5, mulf_apply, addf_apply, broadcastInDim_scalar_apply, constant_apply]

/-- The summed biases, halved, as one row. -/
theorem blk6 (c : Dev nD) (t : Fin cfg0.N) (q : Fin 256) :
    iblk m c 6 t (ix2 (0 : Fin 1) q) = Ideal.ofBits .f32 0x3F000000#32 * (asArray S256 (m ((c : Thread nD τ).loc main_arg5)) (ix1 q) + asArray S256 (m ((c : Thread nD τ).loc main_arg8)) (ix1 q)) := by
  unfold iblk
  show ((cfg0.win 6).blk t).view.read (Elt Ideal) (V m c main_v48) (ix2 (0 : Fin 1) q) = _
  rw [arr_b, read6, Cert.DualLinear.row_of_vector, mulf_apply, addf_apply, broadcastInDim_scalar_apply, constant_apply]

end Cert.Sage

end
-- ==== Proof.LibRowProduct.lean ====
/-
  The dense product of two matrices of extended reals, as one whole-array function.

  For `X : [a, K]` and `W : [K, b]` the product is, at the entry `(r, q)`, the sum over `k < K` of
  `X (r, k) · W (k, q)` (`rowProduct`).  Sums and products on the extended reals are those of a commutative
  monoid, so the order and grouping of the sum never matter and no entry need be finite.

  Two readings of that one function are joined here, for any extents and any float formats of the operands:
  • the host's `dot_general` contracting the one shared axis IS the product, as whole arrays
    (`dotGeneral_eq_rowProduct`) — the dimension numbers enter only through four coordinate facts (which operand
    coordinate is the output's, which is the contraction's), so the lemma serves any record;
  • a product into a zero accumulator whose left operand has first passed through a change of float format
    (the identity on the extended reals) is, at any entry, the same sum (`matmul_trunc_entry`).
  Since entry `(r, q)` reads only row `r` of `X`, a row block of the product is the product of the same row
  block of `X` with `W`: a grid over row blocks computes the product block by block, and a certificate reads
  the blocks' entries with the second lemma and the whole array with the first.
  (It imports LibRowOps.lean, which sits beside it.)
-/
import proofs.«160087_j8839042695664_2_alg».proof.Proof.LibRowOps

noncomputable section

namespace Cert.RowProduct

open Idealize.ShloMosaic Idealize.ShloMosaic.ValueIdx
open scoped BigOperators

/-- The matrix product `X · W`, entry by entry: `(X · W) (r, q) = ∑ k, X (r, k) · W (k, q)`. -/
def rowProduct {a K b : ℕ} {φ₁ φ₂ : FTy} (x : FVec Ideal ⟨2, ![a, K]⟩ φ₁) (w : FVec Ideal ⟨2, ![K, b]⟩ φ₂) :
    FVec Ideal ⟨2, ![a, b]⟩ .f32 :=
  fun i => ∑ k : Fin K, x (ix2 (i 0) k) * w (ix2 k (i 1))

theorem rowProduct_entry {a K b : ℕ} {φ₁ φ₂ : FTy} (x : FVec Ideal ⟨2, ![a, K]⟩ φ₁) (w : FVec Ideal ⟨2, ![K, b]⟩ φ₂)
    (r : Fin a) (q : Fin b) : rowProduct x w (ix2 r q) = ∑ k : Fin K, x (ix2 r k) * w (ix2 k q) := rfl

/-- The host's product contracting the shared axis is the product. -/
theorem dotGeneral_eq_rowProduct {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x : FVec Ideal ⟨2, ![a, K]⟩ φ₁) (w : FVec Ideal ⟨2, ![K, b]⟩ φ₂) :
    Host.dotGeneral (F := Ideal) d prec x w = rowProduct x w := by
  funext i
  obtain ⟨r, q, rfl⟩ : ∃ (r : Fin a) (q : Fin b), i = ix2 r q := ⟨i 0, i 1, eq_ix2 i⟩
  exact Cert.RowOps.dotGeneral_entry d hr hs hl0 hl1 hr0 hr1 prec x w r q

/-- A product into a zero accumulator whose left operand was first narrowed to another float format: on the
    extended reals the narrowing is the identity, so the entry is the plain sum over the contracted axis. -/
theorem matmul_trunc_entry {a K b : ℕ} {φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (x : FVec Ideal ⟨2, ![a, K]⟩ .f32) (w : FVec Ideal ⟨2, ![K, b]⟩ φ₂) (h : FTy.bits .bf16 < FTy.bits .f32)
    (j : (⟨2, ![a, b]⟩ : Shape).Idx) :
    matmul d none (truncf .bf16 x h) w (constant (F := Ideal) ⟨2, ![a, b]⟩ .f32 0x00000000#32) j
      = ∑ k : Fin K, x (ix2 (j 0) k) * w (ix2 k (j 1)) := by
  obtain ⟨r, q, rfl⟩ : ∃ (r : Fin a) (q : Fin b), j = ix2 r q := ⟨j 0, j 1, eq_ix2 j⟩
  exact (Cert.RowOps.matmul_zero_entry d hr hs hl0 hl1 hr0 hr1 none (truncf .bf16 x h) w r q).trans
    (Finset.sum_congr rfl fun k _ => rfl)

end Cert.RowProduct

end
-- ==== Proof.Payload.lean ====
/-
  The value one grid point stores, at one entry.

  The body scales each relation's block of neighbour sums by that relation's column of reciprocal counts, sets the
  two scaled blocks side by side (128 + 192 columns), multiplies the result with the stacked weights and the
  block of own features with the summed root weights — both products into zero accumulators, the narrowing of
  their operands to bf16 being the identity on the extended reals —, adds the two products and the bias row, and
  clamps at zero.  So entry `(r, q)` of the stored block is

      max ((∑ j < 320, side (r, j) · W (j, q)) + (∑ k < 256, x (r, k) · R (k, q)) + b (0, q)) 0,

  where `side (r, j)` is `sumP (r, j) · invP (r)` for `j < 128` and `sumQ (r, j − 128) · invQ (r)` otherwise.
-/
import proofs.«160087_j8839042695664_2_alg».proof.Proof.Gen.KernelIdeal.Skeleton
import proofs.«160087_j8839042695664_2_alg».proof.Proof.LibRowProduct
import proofs.«160087_j8839042695664_2_alg».proof.Proof.LibColumnForms
import Idealize.ShloMosaic.Lib.Pipeline.Value
import Idealize.ShloMosaic.Lib.ValueIdx

set_option pp.maxSteps 5000
set_option pp.deepTerms false

noncomputable section

namespace Cert.Sage.Payload

open Cert.KernelIdeal Cert.KernelIdeal.Gen Idealize.ShloMosaic Idealize.ShloMosaic.ValueIdx
open scoped BigOperators

/-! ## Which operand coordinate is which, for the body's two products -/

theorem d1_l0 (i : S2000x256.Idx) (q : dot_S2000x320_S320x256_S2000x256_1_0_0_1_n_n.contr.Idx) : (dot_S2000x320_S320x256_S2000x256_1_0_0_1_n_n.lhsIdx i q 0).val = (i 0).val := by
  unfold DotDims.lhsIdx
  rw [dif_neg (show ¬(0 : Fin S2000x320.rank) ∈ dot_S2000x320_S320x256_S2000x256_1_0_0_1_n_n.lhsBatch by decide), dif_pos (show (0 : Fin S2000x320.rank) ∈ dot_S2000x320_S320x256_S2000x256_1_0_0_1_n_n.lhsNonContracting by decide)]
  rfl
theorem d1_l1 (i : S2000x256.Idx) (q : dot_S2000x320_S320x256_S2000x256_1_0_0_1_n_n.contr.Idx) : (dot_S2000x320_S320x256_S2000x256_1_0_0_1_n_n.lhsIdx i q 1).val = (q ⟨0, by decide⟩).val :=
  dot_S2000x320_S320x256_S2000x256_1_0_0_1_n_n.lhsIdx_val_of_single rfl i q
theorem d1_r0 (i : S2000x256.Idx) (q : dot_S2000x320_S320x256_S2000x256_1_0_0_1_n_n.contr.Idx) : (dot_S2000x320_S320x256_S2000x256_1_0_0_1_n_n.rhsIdx i q 0).val = (q ⟨0, by decide⟩).val :=
  dot_S2000x320_S320x256_S2000x256_1_0_0_1_n_n.rhsIdx_val_of_single rfl i q
theorem d1_r1 (i : S2000x256.Idx) (q : dot_S2000x320_S320x256_S2000x256_1_0_0_1_n_n.contr.Idx) : (dot_S2000x320_S320x256_S2000x256_1_0_0_1_n_n.rhsIdx i q 1).val = (i 1).val := by
  unfold DotDims.rhsIdx
  rw [dif_neg (show ¬(1 : Fin S320x256.rank) ∈ dot_S2000x320_S320x256_S2000x256_1_0_0_1_n_n.rhsBatch by decide), dif_pos (show (1 : Fin S320x256.rank) ∈ dot_S2000x320_S320x256_S2000x256_1_0_0_1_n_n.rhsNonContracting by decide)]
  rfl

theorem d2_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d2_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem d2_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem d2_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-! ## The two scaled blocks side by side -/

/-- Relation p's block scaled by its reciprocal counts beside relation q's scaled by its own. -/
def side (v0 v2 : FVec Ideal S2000x1 .f32) (v4 : FVec Ideal S2000x128 .f32) (v8 : FVec Ideal S2000x192 .f32) :
    FVec Ideal S2000x320 .f32 :=
  concatenate S2000x320 1
    [⟨S2000x128, mulf v4 (broadcastTo S2000x128 v0 broadcasts_S2000x1_S2000x128)⟩,
     ⟨S2000x192, mulf v8 (broadcastTo S2000x192 v2 broadcasts_S2000x1_S2000x192)⟩]
    concatenates_S2000x128_S2000x192_S2000x320_d1

/-- Among the first 128 columns: relation p's sum times its reciprocal count. -/
theorem side_left (v0 v2 : FVec Ideal S2000x1 .f32) (v4 : FVec Ideal S2000x128 .f32) (v8 : FVec Ideal S2000x192 .f32)
    (r : Fin 2000) (d : Fin 128) :
    side v0 v2 v4 v8 (ix2 r (Fin.castAdd 192 d) : S2000x320.Idx) = v4 (ix2 r d) * v0 (ix2 r (0 : Fin 1)) := by
  unfold side
  refine (concatenate_pair_apply_left (t := S2000x320) (s₁ := S2000x128) (s₂ := S2000x192) (1 : Fin 2) _ _ concatenates_S2000x128_S2000x192_S2000x320_d1
    (ix2 r (Fin.castAdd 192 d) : S2000x320.Idx) rfl (ix2 r d) (fun b => ?_)).trans ?_
  · match b with
    | ⟨0, _⟩ => rfl
    | ⟨1, _⟩ => rfl
  · rw [mulf_apply, Cert.Attn.Pay.broadcastTo_a1_ab_apply]

/-- Among the last 192 columns: relation q's sum times its reciprocal count. -/
theorem side_right (v0 v2 : FVec Ideal S2000x1 .f32) (v4 : FVec Ideal S2000x128 .f32) (v8 : FVec Ideal S2000x192 .f32)
    (r : Fin 2000) (d : Fin 192) :
    side v0 v2 v4 v8 (ix2 r (Fin.natAdd 128 d) : S2000x320.Idx) = v8 (ix2 r d) * v2 (ix2 r (0 : Fin 1)) := by
  unfold side
  refine (concatenate_pair_apply_right (t := S2000x320) (s₁ := S2000x128) (s₂ := S2000x192) (1 : Fin 2) _ _ concatenates_S2000x128_S2000x192_S2000x320_d1
    (ix2 r (Fin.natAdd 128 d) : S2000x320.Idx) rfl rfl (ix2 r d) (fun b hb => ?_) ?_).trans ?_
  · match b with
    | ⟨0, _⟩ => rfl
    | ⟨1, _⟩ => exact absurd rfl hb
  · show d.val + 128 = 128 + d.val
    omega
  · rw [mulf_apply, Cert.Attn.Pay.broadcastTo_a1_ab_apply]

/-! ## The stored value -/

/-- The body's stored value as the operations it is made of, the identity casts dropped. -/
theorem pay_ops (v0 v2 : FVec Ideal S2000x1 .f32) (v4 : FVec Ideal S2000x128 .f32) (v8 : FVec Ideal S2000x192 .f32)
    (v14 : FVec Ideal S2000x256 .f32) (v16 : FVec Ideal S320x256 .f32) (v19 : FVec Ideal S256x256 .f32)
    (v25 : FVec Ideal S1x256 .f32) :
    k0_pay1 (F := Ideal) v0 v2 v4 v8 v14 v16 v19 v25
      = maximumf
          (addf
            (addf
              (matmul dot_S2000x320_S320x256_S2000x256_1_0_0_1_n_n none (truncf .bf16 (side v0 v2 v4 v8) bitsLt_bf16_f32)
                (truncf .bf16 v16 bitsLt_bf16_f32) (constant (F := Ideal) S2000x256 .f32 0x00000000#32))
              (matmul dot_S2000x256_S256x256_S2000x256_1_0_0_1_n_n none (truncf .bf16 v14 bitsLt_bf16_f32)
                (truncf .bf16 v19 bitsLt_bf16_f32) (constant (F := Ideal) S2000x256 .f32 0x00000000#32)))
            (broadcastTo S2000x256 v25 broadcasts_S1x256_S2000x256))
          (broadcast S2000x256 (Scalar.ofBits (F := Ideal) .f32 0x00000000#32)) := by
  unfold k0_pay1 side
  simp only [shapeCast_self]
  rw [shapeCast_self v4, shapeCast_self v0, shapeCast_self v8, shapeCast_self v2]

set_option maxHeartbeats 400000 in
/-- The stored value at entry `(r, q)`. -/
theorem pay_entry (v0 v2 : FVec Ideal S2000x1 .f32) (v4 : FVec Ideal S2000x128 .f32) (v8 : FVec Ideal S2000x192 .f32)
    (v14 : FVec Ideal S2000x256 .f32) (v16 : FVec Ideal S320x256 .f32) (v19 : FVec Ideal S256x256 .f32)
    (v25 : FVec Ideal S1x256 .f32) (r : Fin 2000) (q : Fin 256) :
    k0_pay1 (F := Ideal) v0 v2 v4 v8 v14 v16 v19 v25 (ix2 r q)
      = max (((∑ j : Fin 320, side v0 v2 v4 v8 (ix2 r j) * v16 (ix2 j q))
            + ∑ k : Fin 256, v14 (ix2 r k) * v19 (ix2 k q)) + v25 (ix2 (0 : Fin 1) q))
          (Ideal.ofBits .f32 0x00000000#32) := by
  rw [pay_ops, maximumf_apply, addf_apply, addf_apply, broadcast_apply,
    Cert.RowProduct.matmul_trunc_entry dot_S2000x320_S320x256_S2000x256_1_0_0_1_n_n rfl rfl d1_l0 d1_l1 d1_r0 d1_r1
      (side v0 v2 v4 v8) (truncf .bf16 v16 bitsLt_bf16_f32) bitsLt_bf16_f32 (ix2 r q),
    Cert.RowProduct.matmul_trunc_entry dot_S2000x256_S256x256_S2000x256_1_0_0_1_n_n rfl rfl d2_l0 d2_l1 d2_r0 d2_r1
      v14 (truncf .bf16 v19 bitsLt_bf16_f32) bitsLt_bf16_f32 (ix2 r q),
    broadcastTo_apply v25 broadcasts_S1x256_S2000x256 (ix2 r q) (ix2 (0 : Fin 1) q) (fun ax => by
      match ax with
      | ⟨0, _⟩ => rfl
      | ⟨1, _⟩ => rfl)]
  rfl

end Cert.Sage.Payload

end
-- ==== Proof.HalfFold.lean ====
/-
  The algebra that joins the two programs, on one output entry.

  One destination row of a two-relation mean-aggregating graph layer, followed by the average of the two
  relations' outputs: with `a`, `b` the row's summed neighbour features of the two relations, `cp`, `cq` the
  (clamped) neighbour counts, `x` the row's own features, `wp`, `wq`, `rp`, `rq` one column of the four weight
  matrices, `bp`, `bq` that column's biases and `h` the averaging factor, the averaged layer is

      h · ((∑ (a/cp)·wp + ∑ x·rp + bp) + (∑ (b/cq)·wq + ∑ x·rq + bq)).

  The same number is reached with the factor `h` folded into the weights beforehand: the two neighbour sums
  placed side by side into one contraction of length 128 + 192 against the stacked, pre-scaled weights, the
  own-feature product taken once against the pre-scaled sum of the two matrices, and the pre-scaled sum of the
  biases.  That is distributivity of `h` over finite sums, `s / c = s · (1 / c)` for `c ≠ 0`, and a finite sum
  split at 128.  Distributivity fails at the infinities of the extended reals, so every quantity is a real
  number here; the identity is proved over ℝ and carried across the coercion.
-/
import Mathlib
import Idealize.ShloMosaic.PureOps.Ideal

noncomputable section

namespace Cert.Sage

open Idealize.ShloMosaic
open scoped BigOperators

/-- A finite sum of real numbers, coerced to the extended reals, is the sum of the coerced terms. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals. -/
theorem fold_half_real (h ip iq bp bq : ℝ) (a wp : Fin 128 → ℝ) (b wq : Fin 192 → ℝ) (x rp rq : Fin 256 → ℝ) :
    ((∑ d, (a d * ip) * (h * wp d)) + (∑ d, (b d * iq) * (h * wq d)))
        + (∑ k, x k * (h * (rp k + rq k))) + h * (bp + bq)
      = h * ((((∑ d, (a d * ip) * wp d) + (∑ k, x k * rp k)) + bp)
          + (((∑ d, (b d * iq) * wq d) + (∑ k, x k * rq k)) + bq)) := by
  have e1 : (∑ d, (a d * ip) * (h * wp d)) = h * ∑ d, (a d * ip) * wp d := by
    rw [Finset.mul_sum]; exact Finset.sum_congr rfl fun d _ => by ring
  have e2 : (∑ d, (b d * iq) * (h * wq d)) = h * ∑ d, (b d * iq) * wq d := by
    rw [Finset.mul_sum]; exact Finset.sum_congr rfl fun d _ => by ring
  have e3 : (∑ k, x k * (h * (rp k + rq k))) = h * (∑ k, x k * rp k) + h * (∑ k, x k * rq k) := by
    rw [Finset.mul_sum, Finset.mul_sum, ← Finset.sum_add_distrib]
    exact Finset.sum_congr rfl fun k _ => by ring
  rw [e1, e2, e3]; ring

/-- The identity on the extended reals, for real quantities: the folded form (left) is the averaged layer (right).
    The contraction of length 128 + 192 enters through its two halves: `f`, `g` are the side-by-side neighbour
    means and the stacked pre-scaled weights, known on the first 128 and the last 192 positions. -/
theorem fold_half (h cp cq bp bq : ℝ) (hcp : cp ≠ 0) (hcq : cq ≠ 0)
    (a wp : Fin 128 → ℝ) (b wq : Fin 192 → ℝ) (x rp rq : Fin 256 → ℝ)
    (f g : Fin (128 + 192) → EReal)
    (hf1 : ∀ d, f (Fin.castAdd 192 d) = (a d : EReal) * Ideal.div 1 (cp : EReal))
    (hf2 : ∀ d, f (Fin.natAdd 128 d) = (b d : EReal) * Ideal.div 1 (cq : EReal))
    (hg1 : ∀ d, g (Fin.castAdd 192 d) = (h : EReal) * (wp d : EReal))
    (hg2 : ∀ d, g (Fin.natAdd 128 d) = (h : EReal) * (wq d : EReal)) :
    (∑ j, f j * g j) + (∑ k, (x k : EReal) * ((h : EReal) * ((rp k : EReal) + (rq k : EReal))))
        + (h : EReal) * ((bp : EReal) + (bq : EReal))
      = (h : EReal) * ((((∑ d, Ideal.div (a d : EReal) (cp : EReal) * (wp d : EReal))
              + (∑ k, (x k : EReal) * (rp k : EReal))) + (bp : EReal))
          + (((∑ d, Ideal.div (b d : EReal) (cq : EReal) * (wq d : EReal))
              + (∑ k, (x k : EReal) * (rq k : EReal))) + (bq : EReal))) := by
  rw [Fin.sum_univ_add]
  simp only [hf1, hf2, hg1, hg2, Ideal.div_coe hcp, Ideal.div_coe hcq, one_mul]
  simp only [← EReal.coe_mul, ← EReal.coe_add, ← coe_sum]
  exact congrArg _ (fold_half_real h (1 / cp) (1 / cq) bp bq a wp b wq x rp rq)

end Cert.Sage

end
-- ==== Proof.RowJoin.lean ====
/-
  One entry of one block is the reference's entry.

  Take a grid point's eight blocks as variables, and suppose each holds what the region stages there: row `r` of
  the neighbour-sum blocks and of the own-feature block is row `n` of the arrays; the two-column block holds the
  two reciprocal clamped counts of row `n`; the weight blocks hold the stacked neighbour weights, the summed root
  weights and the summed biases, each already multiplied by the averaging factor `H`.  If moreover every quantity
  met along row `n` and column `q` is a real number (and the two clamped counts are positive), then the value the
  body stores at `(r, q)` is the averaged two-relation layer of row `n` at column `q`, clamped at zero — the
  reference's entry.  The algebra is the distributive law of `HalfFold.lean`; this file only matches the two
  texts to it.
-/
import proofs.«160087_j8839042695664_2_alg».proof.Proof.Gen.KernelIdeal.Frame
import proofs.«160087_j8839042695664_2_alg».proof.Proof.Payload
import proofs.«160087_j8839042695664_2_alg».proof.Proof.HalfFold
import proofs.«160087_j8839042695664_2_alg».proof.Proof.LibRealEntries

set_option pp.maxSteps 5000
set_option pp.deepTerms false

noncomputable section

namespace Cert.Sage

open Cert.KernelIdeal Cert.KernelIdeal.Gen Idealize.ShloMosaic Idealize.ShloMosaic.ValueIdx
open Cert.Lib.RealEntries Cert.Sage.Payload
open scoped BigOperators

/-- The body's first load: column 0 of the two-column block, as a column. -/
theorem ld_col0 (b2 : Vec Ideal S2000x2 .f32) (r : Fin 2000) :
    View.ld b2 r0_0 (ix2 r (0 : Fin 1)) = b2 (ix2 r (0 : Fin 2)) := by
  show b2 (r0_0.emb (ix2 r (0 : Fin 1))) = _
  refine congrArg b2 (funext fun a => Fin.ext ?_)
  match a with
  | ⟨0, _⟩ => show 0 + 1 * r.val = r.val; omega
  | ⟨1, _⟩ => rfl

/-- The body's second load: column 1 of the two-column block, as a column. -/
theorem ld_col1 (b2 : Vec Ideal S2000x2 .f32) (r : Fin 2000) :
    View.ld b2 r0_1 (ix2 r (0 : Fin 1)) = b2 (ix2 r (1 : Fin 2)) := by
  show b2 (r0_1.emb (ix2 r (0 : Fin 1))) = _
  refine congrArg b2 (funext fun a => Fin.ext ?_)
  match a with
  | ⟨0, _⟩ => show 0 + 1 * r.val = r.val; omega
  | ⟨1, _⟩ => rfl

set_option maxHeartbeats 1000000 in
theorem row_join (H : EReal) (hH : IsReal H)
    (Sp : FVec Ideal S40000x128 .f32) (Sq : FVec Ideal S40000x192 .f32) (cp cq : FVec Ideal S40000 .f32)
    (x0 : FVec Ideal S40000x256 .f32) (x3 : FVec Ideal S128x256 .f32) (x4 x7 : FVec Ideal S256x256 .f32)
    (x5 x8 : FVec Ideal S256 .f32) (x6 : FVec Ideal S192x256 .f32)
    (b0 : FVec Ideal S2000x128 .f32) (b1 : FVec Ideal S2000x192 .f32) (b2 : Vec Ideal S2000x2 .f32)
    (b3 : FVec Ideal S2000x256 .f32) (b4 : FVec Ideal S320x256 .f32) (b5 : FVec Ideal S256x256 .f32)
    (b6 : FVec Ideal S1x256 .f32) (n : Fin 40000) (r : Fin 2000) (q : Fin 256)
    (hb0 : ∀ d : Fin 128, b0 (ix2 r d) = Sp (ix2 n d)) (hb1 : ∀ d : Fin 192, b1 (ix2 r d) = Sq (ix2 n d))
    (hb2p : b2 (ix2 r (0 : Fin 2)) = Ideal.div 1 (cp (ix1 n))) (hb2q : b2 (ix2 r (1 : Fin 2)) = Ideal.div 1 (cq (ix1 n)))
    (hb3 : ∀ k : Fin 256, b3 (ix2 r k) = x0 (ix2 n k))
    (hb4p : ∀ d : Fin 128, b4 (ix2 (Fin.castAdd 192 d) q : S320x256.Idx) = H * x3 (ix2 d q))
    (hb4q : ∀ d : Fin 192, b4 (ix2 (Fin.natAdd 128 d) q : S320x256.Idx) = H * x6 (ix2 d q))
    (hb5 : ∀ k : Fin 256, b5 (ix2 k q) = H * (x4 (ix2 k q) + x7 (ix2 k q)))
    (hb6 : b6 (ix2 (0 : Fin 1) q) = H * (x5 (ix1 q) + x8 (ix1 q)))
    (hSp : ∀ d : Fin 128, IsReal (Sp (ix2 n d))) (hSq : ∀ d : Fin 192, IsReal (Sq (ix2 n d)))
    (hcp : IsPosReal (cp (ix1 n))) (hcq : IsPosReal (cq (ix1 n)))
    (hx0 : ∀ k : Fin 256, IsReal (x0 (ix2 n k))) (hx3 : ∀ d : Fin 128, IsReal (x3 (ix2 d q)))
    (hx6 : ∀ d : Fin 192, IsReal (x6 (ix2 d q))) (hx4 : ∀ k : Fin 256, IsReal (x4 (ix2 k q)))
    (hx7 : ∀ k : Fin 256, IsReal (x7 (ix2 k q))) (hx5 : IsReal (x5 (ix1 q))) (hx8 : IsReal (x8 (ix1 q))) :
    k0_pay1 (F := Ideal) (View.ld b2 r0_0) (View.ld b2 r0_1) b0 b1 b3 b4 b5 b6 (ix2 r q)
      = max (H *
          ((((∑ d : Fin 128, Ideal.div (Sp (ix2 n d)) (cp (ix1 n)) * x3 (ix2 d q))
              + (∑ k : Fin 256, x0 (ix2 n k) * x4 (ix2 k q))) + x5 (ix1 q))
          + (((∑ d : Fin 192, Ideal.div (Sq (ix2 n d)) (cq (ix1 n)) * x6 (ix2 d q))
              + (∑ k : Fin 256, x0 (ix2 n k) * x7 (ix2 k q))) + x8 (ix1 q)))) (Ideal.ofBits .f32 0x00000000#32) := by
  obtain ⟨h, hHe⟩ := hH
  choose sp hspe using hSp
  choose sq hsqe using hSq
  obtain ⟨cpr, hcp0, hcpe⟩ := hcp
  obtain ⟨cqr, hcq0, hcqe⟩ := hcq
  choose xr hx0e using hx0
  choose w3 hw3e using hx3
  choose w6 hw6e using hx6
  choose w4 hw4e using hx4
  choose w7 hw7e using hx7
  obtain ⟨bp, hx5e⟩ := hx5
  obtain ⟨bq, hx8e⟩ := hx8
  have hf1 : ∀ d : Fin 128, side (View.ld b2 r0_0) (View.ld b2 r0_1) b0 b1 (ix2 r (Fin.castAdd 192 d) : S2000x320.Idx)
      = (sp d : EReal) * Ideal.div 1 (cpr : EReal) := fun d => by
    rw [side_left, ld_col0, hb0, hspe, hb2p, hcpe]
  have hf2 : ∀ d : Fin 192, side (View.ld b2 r0_0) (View.ld b2 r0_1) b0 b1 (ix2 r (Fin.natAdd 128 d) : S2000x320.Idx)
      = (sq d : EReal) * Ideal.div 1 (cqr : EReal) := fun d => by
    rw [side_right, ld_col1, hb1, hsqe, hb2q, hcqe]
  have hg1 : ∀ d : Fin 128, b4 (ix2 (Fin.castAdd 192 d) q : S320x256.Idx) = (h : EReal) * (w3 d : EReal) := fun d => by
    rw [hb4p, hHe, hw3e]
  have hg2 : ∀ d : Fin 192, b4 (ix2 (Fin.natAdd 128 d) q : S320x256.Idx) = (h : EReal) * (w6 d : EReal) := fun d => by
    rw [hb4q, hHe, hw6e]
  have key := fold_half h cpr cqr bp bq hcp0.ne' hcq0.ne' sp w3 sq w6 xr w4 w7
    (fun j => side (View.ld b2 r0_0) (View.ld b2 r0_1) b0 b1 (ix2 r j : S2000x320.Idx))
    (fun j => b4 (ix2 j q : S320x256.Idx)) hf1 hf2 hg1 hg2
  rw [pay_entry]
  refine congrArg (fun z => max z (Ideal.ofBits .f32 0x00000000#32)) ?_
  simp only [hb3, hb5, hb6, hx0e, hw4e, hw7e, hx5e, hx8e, hHe, hspe, hsqe, hcpe, hcqe, hw3e, hw6e]
  exact key

end Cert.Sage

end
-- ==== Proof.RefEntry.lean ====
/-
  The reference's result at one entry.

  Entry `(n, q)` of the reference's output is `max (½ · ((P + X + bp) + (Q + X' + bq))) 0`, where `P` is the
  contraction over the 128 features of relation p's neighbour sum of row `n`, each divided by the row's clamped
  neighbour count, against column `q` of that relation's weights; `X` the contraction of row `n` of the node's
  own features against column `q` of the root weights; `bp` the bias of column `q`; and `Q`, `X'`, `bq` the
  same for relation q (192 features).  The neighbour sums and counts (the scatter-added stages) are kept as the
  reference's own stages: nothing here depends on which edges exist.
-/
import proofs.«160087_j8839042695664_2_alg».proof.Proof.Gen.ReferenceIdeal.Read

set_option pp.maxSteps 5000
set_option pp.deepTerms false

noncomputable section

namespace Cert.Sage.RefEntry

open Cert.ReferenceIdeal Cert.ReferenceIdeal.Read Idealize.ShloMosaic Idealize.ShloMosaic.ValueIdx
open scoped BigOperators

/-- A float array of the given shape at the ideal instance, and an index array. -/
abbrev A (s : Shape) := (⟨s, .f32⟩ : BufTy).Contents (Elt Ideal)
abbrev I (s : Shape) := (⟨s, .i32⟩ : BufTy).Contents (Elt Ideal)

set_option maxHeartbeats 400000 in
theorem out_entry (x0 : A S40000x256) (x1 : A S80000x128) (x2 : A S60000x192) (x3 : A S128x256) (x4 : A S256x256)
    (x5 : A S256) (x6 : A S192x256) (x7 : A S256x256) (x8 : A S256) (x9 x10 : I S1280000) (x11 x12 : I S640000)
    (n : Fin 40000) (q : Fin 256) :
    val_main_v53 (F := Ideal) x0 x1 x2 x3 x4 x5 x6 x7 x8 x9 x10 x11 x12 (ix2 n q)
      = max (Ideal.ofBits .f32 0x3F000000#32 *
          ((((∑ d : Fin 128, Ideal.div (val_main_v9 (F := Ideal) x1 x9 x10 (ix2 n d)) (val_main_v15 (F := Ideal) x10 (ix1 n)) * x3 (ix2 d q))
              + (∑ k : Fin 256, x0 (ix2 n k) * x4 (ix2 k q))) + x5 (ix1 q))
          + (((∑ d : Fin 192, Ideal.div (val_main_v34 (F := Ideal) x2 x11 x12 (ix2 n d)) (val_main_v40 (F := Ideal) x12 (ix1 n)) * x6 (ix2 d q))
              + (∑ k : Fin 256, x0 (ix2 n k) * x7 (ix2 k q))) + x8 (ix1 q))))
        (Ideal.ofBits .f32 0x00000000#32) := by
  have e19l : ∀ k, lidx_main_v19 (ix2 n q) k = ix2 n k := fun k => funext fun a => Fin.ext (by
    match a with | ⟨0, _⟩ => rfl | ⟨1, _⟩ => rfl)
  have e19r : ∀ k, ridx_main_v19 (ix2 n q) k = ix2 k q := fun k => funext fun a => Fin.ext (by
    match a with | ⟨0, _⟩ => rfl | ⟨1, _⟩ => rfl)
  have e17 : ∀ k : Fin 128, idx_main_v16 (idx_main_v17 (ix2 n k)) = ix1 n := fun k => funext fun a => Fin.ext (by
    match a with | ⟨0, _⟩ => rfl)
  have e20l : ∀ k, lidx_main_v20 (ix2 n q) k = ix2 n k := fun k => funext fun a => Fin.ext (by
    match a with | ⟨0, _⟩ => rfl | ⟨1, _⟩ => rfl)
  have e20r : ∀ k, ridx_main_v20 (ix2 n q) k = ix2 k q := fun k => funext fun a => Fin.ext (by
    match a with | ⟨0, _⟩ => rfl | ⟨1, _⟩ => rfl)
  have e23 : idx_main_v22 (idx_main_v23 (ix2 n q)) = ix1 q := funext fun a => Fin.ext (by
    match a with | ⟨0, _⟩ => rfl)
  have e44l : ∀ k, lidx_main_v44 (ix2 n q) k = ix2 n k := fun k => funext fun a => Fin.ext (by
    match a with | ⟨0, _⟩ => rfl | ⟨1, _⟩ => rfl)
  have e44r : ∀ k, ridx_main_v44 (ix2 n q) k = ix2 k q := fun k => funext fun a => Fin.ext (by
    match a with | ⟨0, _⟩ => rfl | ⟨1, _⟩ => rfl)
  have e42 : ∀ k : Fin 192, idx_main_v41 (idx_main_v42 (ix2 n k)) = ix1 n := fun k => funext fun a => Fin.ext (by
    match a with | ⟨0, _⟩ => rfl)
  have e45l : ∀ k, lidx_main_v45 (ix2 n q) k = ix2 n k := fun k => funext fun a => Fin.ext (by
    match a with | ⟨0, _⟩ => rfl | ⟨1, _⟩ => rfl)
  have e45r : ∀ k, ridx_main_v45 (ix2 n q) k = ix2 k q := fun k => funext fun a => Fin.ext (by
    match a with | ⟨0, _⟩ => rfl | ⟨1, _⟩ => rfl)
  have e48 : idx_main_v47 (idx_main_v48 (ix2 n q)) = ix1 q := funext fun a => Fin.ext (by
    match a with | ⟨0, _⟩ => rfl)
  rw [val_main_v53_apply, val_main_v52_apply, val_main_v51_apply, val_main_cst_10_apply, val_main_call0_v0_apply,
    val_main_call0_cst_apply, val_main_v50_apply, val_main_v24_apply, val_main_v49_apply, val_main_v21_apply,
    val_main_v46_apply, val_main_v23_apply, val_main_v22_apply, val_main_v48_apply, val_main_v47_apply, e23, e48,
    val_main_v19_apply, val_main_v20_apply, val_main_v44_apply, val_main_v45_apply]
  have s19 : (∑ k : Fin 128, val_main_v18 (F := Ideal) x1 x9 x10 (lidx_main_v19 (ix2 n q) k) * x3 (ridx_main_v19 (ix2 n q) k))
      = ∑ d : Fin 128, Ideal.div (val_main_v9 (F := Ideal) x1 x9 x10 (ix2 n d)) (val_main_v15 (F := Ideal) x10 (ix1 n)) * x3 (ix2 d q) :=
    Finset.sum_congr rfl fun k _ => by
      rw [e19l, e19r, val_main_v18_apply, val_main_v17_apply, val_main_v16_apply, e17]; rfl
  have s44 : (∑ k : Fin 192, val_main_v43 (F := Ideal) x2 x11 x12 (lidx_main_v44 (ix2 n q) k) * x6 (ridx_main_v44 (ix2 n q) k))
      = ∑ d : Fin 192, Ideal.div (val_main_v34 (F := Ideal) x2 x11 x12 (ix2 n d)) (val_main_v40 (F := Ideal) x12 (ix1 n)) * x6 (ix2 d q) :=
    Finset.sum_congr rfl fun k _ => by
      rw [e44l, e44r, val_main_v43_apply, val_main_v42_apply, val_main_v41_apply, e42]; rfl
  have s20 : (∑ k : Fin 256, x0 (lidx_main_v20 (ix2 n q) k) * x4 (ridx_main_v20 (ix2 n q) k))
      = ∑ k : Fin 256, x0 (ix2 n k) * x4 (ix2 k q) :=
    Finset.sum_congr rfl fun k _ => by rw [e20l, e20r]
  have s45 : (∑ k : Fin 256, x0 (lidx_main_v45 (ix2 n q) k) * x7 (ridx_main_v45 (ix2 n q) k))
      = ∑ k : Fin 256, x0 (ix2 n k) * x7 (ix2 k q) :=
    Finset.sum_congr rfl fun k _ => by rw [e45l, e45r]
  rw [s19, s44, s20, s45]
  rfl

end Cert.Sage.RefEntry

end
-- ==== Proof.Blocks.lean ====
/-
  From blocks to the array: the kernel's result array is the reference's result.

  Point `t` writes back a `[2000, 256]` block whose entry `(r, q)` is, by the entry lemma, the reference's result at
  `(2000·t + r, q)` — here the precondition enters, through the realness of every quantity along that row and
  column.  The 20 blocks tile the `[40000, 256]` array (row `i` lies in block `i / 2000`), so after the run the
  array is the reference's result stage of the kernel's own arguments.
-/
import proofs.«160087_j8839042695664_2_alg».proof.Proof.BlockReads
import proofs.«160087_j8839042695664_2_alg».proof.Proof.RowJoin
import proofs.«160087_j8839042695664_2_alg».proof.Proof.RefEntry

set_option pp.maxSteps 5000
set_option pp.deepTerms false
set_option Elab.async false

noncomputable section

namespace Cert.Sage

open Cert.KernelIdeal Cert.KernelIdeal.Gen Idealize.ShloMosaic Idealize.ShloMosaic.TcCoe Idealize.SL.Sem
open Idealize.ShloMosaic.ValueIdx Cert.Lib.RealEntries
open Idealize.ShloMosaic.Pipeline (Dat)

variable (m : (ℓ : Loc nD τ sig) → Buf (Elt Ideal) ℓ)

/-- The result array both programs end with: the reference's result stage, of the kernel's arguments. -/
def result (c : Dev nD) : FVec Ideal S40000x256 .f32 :=
  Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- A block entry of any array held in the result window's buffer. -/
theorem read7 (G : FVec Ideal S40000x256 .f32) (t : Fin cfg0.N) (r : Fin 2000) (q : Fin 256) :
    ((cfg0.win 7).blk t).view.read (Elt Ideal) G (ix2 r q) = G (ix2 (rowOf t r) q) := by
  show G (((cfg0.win 7).blk t).view.emb (ix2 r q)) = _
  rw [emb7]

theorem zero_offsets : (![0, 0] : Fin 2 → Nat) = fun _ => 0 := funext fun a => by fin_cases a <;> rfl

set_option maxHeartbeats 2000000 in
/-- What point `t` writes back is block `t` of the result. -/
theorem flushed_eq [Cert.Pre_finite_inputs.Facts] (hpre : Cert.Pre_KernelIdeal m) (c : Dev nD) (t : Fin cfg0.N) :
    (dats m 0 c).flushed 7 t = ((cfg0.win 7).blk t).view.read (Elt Ideal) (result m c) := by
  obtain ⟨h0, h1, h2, h3, h4, h5, h6, h7, h8⟩ := args_real m hpre c
  rw [Cert.KernelIdeal.Value.flushed7]
  unfold out0_7
  rw [View.canon_unit_zero zero_offsets]
  simp only [View.ld_unit_zero (S := S2000x128) zero_offsets, View.ld_unit_zero (S := S2000x192) zero_offsets,
    View.ld_unit_zero (S := S2000x256) zero_offsets, View.ld_unit_zero (S := S320x256) zero_offsets,
    View.ld_unit_zero (S := S256x256) zero_offsets, View.ld_unit_zero (S := S1x256) zero_offsets]
  funext y
  obtain ⟨r, q, rfl⟩ : ∃ (r : Fin 2000) (q : Fin 256), y = ix2 r q := ⟨y 0, y 1, eq_ix2 y⟩
  show k0_pay1 (F := Ideal) (View.ld (iblk m c 2 t) r0_0) (View.ld (iblk m c 2 t) r0_1) (iblk m c 0 t) (iblk m c 1 t)
      (iblk m c 3 t) (iblk m c 4 t) (iblk m c 5 t) (iblk m c 6 t) (ix2 r q)
    = ((cfg0.win 7).blk t).view.read (Elt Ideal) (result m c) (ix2 r q)
  rw [read7]
  refine (row_join (Ideal.ofBits .f32 0x3F000000#32) isReal_half (sumP m c) (sumQ m c) (cntP m c) (cntQ m c)
    (m ((c : Thread nD τ).loc main_arg0)) (m ((c : Thread nD τ).loc main_arg3)) (m ((c : Thread nD τ).loc main_arg4)) (m ((c : Thread nD τ).loc main_arg7)) (m ((c : Thread nD τ).loc main_arg5)) (m ((c : Thread nD τ).loc main_arg8)) (m ((c : Thread nD τ).loc main_arg6))
    (iblk m c 0 t) (iblk m c 1 t) (iblk m c 2 t) (iblk m c 3 t) (iblk m c 4 t) (iblk m c 5 t) (iblk m c 6 t)
    (rowOf t r) r q
    (blk0 m c t r) (blk1 m c t r) (blk2p m c t r) (blk2q m c t r) (blk3 m c t r)
    (fun d => blk4p m c t d q) (fun d => blk4q m c t d q) (fun k => blk5 m c t k q) (blk6 m c t q)
    (fun d => sumP_real m c h1 (ix2 (rowOf t r) d)) (fun d => sumQ_real m c h2 (ix2 (rowOf t r) d))
    (cntP_pos m c (ix1 (rowOf t r))) (cntQ_pos m c (ix1 (rowOf t r)))
    (fun k => h0 (ix2 (rowOf t r) k)) (fun d => h3 (ix2 d q)) (fun d => h6 (ix2 d q))
    (fun k => h4 (ix2 k q)) (fun k => h7 (ix2 k q)) (h5 (ix1 q)) (h8 (ix1 q))).trans ?_
  exact (Cert.Sage.RefEntry.out_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (rowOf t r) q).symm

/-- An index of the array is in point `t`'s block iff each coordinate is in the block's range on its axis. -/
theorem mem_blk7 (t : Fin cfg0.N) (i : S40000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v49).slice (win0_7.rect t)).set ↔ _
  rw [View.set_slice_whole, Rect.mem_set_unit]
  exact Iff.rfl

/-- Every index of the result array lies in the block of the point that owns its row. -/
theorem cover7 (i : S40000x256.Idx) :
    ∃ t : Fin cfg0.N, (cfg0.win 7).flush t = true ∧ i ∈ ((cfg0.win 7).blk t).view.set := by
  have hN : cfg0.N = 20 := N_0
  have hi0 : (i 0).val < 40000 := (i 0).isLt
  have hi1 : (i 1).val < 256 := (i 1).isLt
  have ht : (i 0).val / 2000 < cfg0.N := by omega
  obtain ⟨-, -, -, -, -, -, -, -, -, -, -, -, -, -, e70, e71⟩ := idx_facts (⟨(i 0).val / 2000, ht⟩ : Fin cfg0.N)
  refine ⟨⟨(i 0).val / 2000, ht⟩, flush0_7 _, ?_⟩
  rw [mem_blk7]
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    have e : win0_7.index ⟨(i 0).val / 2000, ht⟩ (0 : Fin 2) = (i 0).val / 2000 := e70
    omega
  | ⟨1, _⟩ =>
    show win0_7.index ⟨(i 0).val / 2000, ht⟩ (1 : Fin 2) * 256 ≤ (i 1).val
      ∧ (i 1).val < win0_7.index ⟨(i 0).val / 2000, ht⟩ (1 : Fin 2) * 256 + 256
    omega

/-- After the run the result array is the reference's result stage of the kernel's arguments. -/
theorem final [Cert.Pre_finite_inputs.Facts] (hpre : Cert.Pre_KernelIdeal m) (c : Dev nD) :
    (dats m 0 c).arrAt 7 cfg0.N = result m c :=
  (dats m 0 c).arrAt_eq_of_cover 7 (result m c) (fun t _ => flushed_eq m hpre c t) cover7

/-- The kernel's run, with its result array named. -/
theorem run [Cert.Pre_finite_inputs.Facts] (hpre : Cert.Pre_KernelIdeal m) (ρ : Dev nD → PrngReg) :
    θ_run defs (onTc (τ := τ) (main (F := Ideal))) ⟨m, fun _ => 0, ρ⟩ fun r => ∀ c : Dev nD,
      r.2.mem ((c : Thread nD τ).loc main_v49) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m hpre c), (h c).2⟩)
    (Cert.KernelIdeal.Value.run_blocks m ρ)

end Cert.Sage

end
-- ==== Proof.lean ====
/-
  A two-relation mean-aggregating graph layer, averaged over the relations and clamped at zero: the row-tiled
  kernel against the plain reference, equal on the extended reals whenever the float inputs are finite.

  For each destination row `n` and each of two relations the programs gather the source nodes' feature rows along
  the edges and add them up by destination (`S_p (n, ·)`, 128 features; `S_q (n, ·)`, 192 features), and count the
  edges into `n`, clamped from below at one (`c_p n`, `c_q n`).  The reference then computes, per relation,
  `(S / c) · Wl + x · Wr + b`, adds the two relations' outputs, halves the sum and clamps it at zero.  The kernel
  instead halves the weights beforehand: it stacks the two neighbour weight matrices and halves the stack, adds
  the two root weight matrices and halves the sum, adds the two biases and halves the sum; then, row tile by row
  tile (20 tiles of 2000 rows), it multiplies each neighbour sum by the reciprocal `1 / c`, sets the two scaled
  sums side by side, and takes ONE contraction of length 320 against the stacked weights plus ONE contraction of
  the node's own features against the summed root weights, adds the bias row and clamps at zero.

  On the extended reals the two are the same number by: `s / c = s · (1 / c)` for a real `c ≥ 1`; a finite sum of
  320 terms split into its first 128 and last 192; and the distributive law `h · (∑ a + ∑ b + …) = ∑ h·a + …`.
  The distributive law is false at the infinities, so the proof uses the precondition: every float input is
  finite, hence every neighbour sum is a real number (a finite sum of input entries), every clamped count a
  positive real, and one half is a real; the identity is then an identity of real numbers (`HalfFold.lean`).
  Narrowing the products' operands to bf16 is the identity on the extended reals and plays no part.

  The neighbour sums and counts are computed by the same gather and scatter-add in both programs and are never
  opened: both sides are stated over the reference's own stages.  The kernel's result array is read off its
  frame run block by block (`Blocks.lean`): block `t`, entry `(r, q)`, is the reference's result at
  `(2000·t + r, q)`, and the 20 blocks tile the array.  The reference's frame is its run with the result dropped;
  the two kernels' frames are their generated frame runs; nothing was rewritten by the idealization, so the
  fourth conjunct is `True`.
-/
import proofs.«160087_j8839042695664_2_alg».proof.Defs
import proofs.«160087_j8839042695664_2_alg».proof.Proof.Gen.Kernel
import proofs.«160087_j8839042695664_2_alg».proof.Proof.Gen.Kernel.Skeleton
import proofs.«160087_j8839042695664_2_alg».proof.Proof.Gen.Kernel.Launch
import proofs.«160087_j8839042695664_2_alg».proof.Proof.Gen.Kernel.Points
import proofs.«160087_j8839042695664_2_alg».proof.Proof.Gen.Kernel.Frame
import proofs.«160087_j8839042695664_2_alg».proof.Proof.Gen.KernelIdeal
import proofs.«160087_j8839042695664_2_alg».proof.Proof.Gen.KernelIdeal.Skeleton
import proofs.«160087_j8839042695664_2_alg».proof.Proof.Gen.KernelIdeal.Launch
import proofs.«160087_j8839042695664_2_alg».proof.Proof.Gen.KernelIdeal.Points
import proofs.«160087_j8839042695664_2_alg».proof.Proof.Gen.KernelIdeal.Frame
import proofs.«160087_j8839042695664_2_alg».proof.Proof.Gen.ReferenceIdeal
import proofs.«160087_j8839042695664_2_alg».proof.Proof.Gen.Pre_finite_inputs
import proofs.«160087_j8839042695664_2_alg».proof.Proof.Gen.KernelIdeal.Value
import proofs.«160087_j8839042695664_2_alg».proof.Proof.Gen.ReferenceIdeal.Run
import proofs.«160087_j8839042695664_2_alg».proof.Proof.Gen.ReferenceIdeal.Read
import proofs.«160087_j8839042695664_2_alg».proof.Proof.Blocks
import Idealize.ShloMosaic.Adequacy
import Idealize.ShloMosaic.Init

noncomputable section

namespace Cert.Proof

open Idealize.ShloMosaic Idealize.SL.Sem

/-- The word-level kernel runs and leaves its arguments as they were: its frame run. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's result stage of the kernel's arguments: the kernel by the block-by-block
    reading of its run under the precondition, the reference by its own run once the agreeing arguments are
    rewritten. -/
theorem algebraic : Cert.algebraic_KernelIdeal_ReferenceIdeal := by
  intro m ρ m' ρ' hpre hagree
  refine ⟨fun c => Cert.Sage.result m c, Cert.Sage.run m hpre ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [a0, a1, a2, a3, a4, a5, a6, a7, a8, a9, a10, a11, a12]
  exact Cert.ReferenceIdeal.Read.val_main_v53_eq _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
